-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x4096 : Shape := ⟨2, ![2048, 4096]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x2048 .f32) (main_arg1 : FVec F S1024x2048 .f32) (main_arg2 : FVec F S1024x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048 .f32) (main_arg10 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S1024x2048 : Shape := ⟨2, ![1024, 2048]⟩
abbrev S2048x4096 : Shape := ⟨2, ![2048, 4096]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S512x4096 : Shape := ⟨2, ![512, 4096]⟩
abbrev S1x512 : Shape := ⟨2, ![1, 512]⟩
abbrev S512x2048 : Shape := ⟨2, ![512, 2048]⟩
abbrev S256x1024 : Shape := ⟨2, ![256, 1024]⟩
abbrev S1024x4096 : Shape := ⟨2, ![1024, 4096]⟩
abbrev S1x1024 : Shape := ⟨2, ![1, 1024]⟩

abbrev nBuf : Space → Nat
  | .hbm => 25
  | .vmem => 40
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x4096, .bf16⟩
  | .hbm, ⟨12, _⟩ => ⟨S2048x4096, .bf16⟩
  | .hbm, ⟨13, _⟩ => ⟨S2048x4096, .bf16⟩
  | .hbm, ⟨14, _⟩ => ⟨S1024x2048, .bf16⟩
  | .hbm, ⟨15, _⟩ => ⟨S1024x2048, .bf16⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1024x2048, .f32⟩
  | .hbm, ⟨22, _⟩ => ⟨S1024x2048, .bf16⟩
  | .hbm, ⟨23, _⟩ => ⟨S1024x2048, .f32⟩
  | .hbm, ⟨24, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .f32⟩
  | .local _ .vmem, ⟨5, _⟩ => ⟨S256x512, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1024x4096, .bf16⟩
  | .local _ .vmem, ⟨29, _⟩ => ⟨S1024x4096, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x4096_S512x2048_0_0 : ∀ a, (![0, 0] : Fin 2 → Nat) a + S512x2048.size a ≤ S512x4096.size a
  h_S512x2048 : 0 < S512x2048.numel
  shapeCasts_S512x2048_S512x2048 : S512x2048.ShapeCasts S512x2048
  inb_S512x4096_S512x2048_0_2048 : ∀ a, (![0, 2048] : Fin 2 → Nat) a + S512x2048.size a ≤ S512x4096.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S1024x4096_S1024x2048_0_0 : ∀ a, (![0, 0] : Fin 2 → Nat) a + S1024x2048.size a ≤ S1024x4096.size a
  h_S1024x2048 : 0 < S1024x2048.numel
  shapeCasts_S1024x2048_S1024x2048 : S1024x2048.ShapeCasts S1024x2048
  inb_S1024x4096_S1024x2048_0_2048 : ∀ a, (![0, 2048] : Fin 2 → Nat) a + S1024x2048.size a ≤ S1024x4096.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  natLt_1_32 : 1 < 32
  dot_S256x2048_S512x2048_S256x512_1_1_0_0_n_n_wf : DotDims.WF S256x2048 S512x2048 S256x512 [1] [1] [0] [0] [] []
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .bf16 = 32 ∨ (Rect.block (s := S1024x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .bf16 = 32 ∨ (Rect.block (s := S1024x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S1024x2048.size a
  hwx0_2 : ∀ i : grid0.Coords, EltTy.bits .f32 = 32 ∨ (Rect.block (s := S1024x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S2048x4096.size a
  hwx0_3 : ∀ i : grid0.Coords, EltTy.bits .bf16 = 32 ∨ (Rect.block (s := S2048x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S2048x4096.size a
  hwx0_4 : ∀ i : grid0.Coords, EltTy.bits .bf16 = 32 ∨ (Rect.block (s := S2048x4096) S512x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S1024x2048.size a
  hwx0_7 : ∀ i : grid0.Coords, EltTy.bits .f32 = 32 ∨ (Rect.block (s := S1024x2048) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S1024x2048.size a
  hwx0_8 : ∀ i : grid0.Coords, EltTy.bits .bf16 = 32 ∨ (Rect.block (s := S1024x2048) S256x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x2048.size a
  hwx1_0 : ∀ i : grid1.Coords, EltTy.bits .bf16 = 32 ∨ (Rect.block (s := S1024x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S1024x2048.size a
  hwx1_1 : ∀ i : grid1.Coords, EltTy.bits .bf16 = 32 ∨ (Rect.block (s := S1024x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S1024x2048.size a
  hwx1_2 : ∀ i : grid1.Coords, EltTy.bits .f32 = 32 ∨ (Rect.block (s := S1024x2048) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S1024x2048.size a
  hwx1_3 : ∀ i : grid1.Coords, EltTy.bits .f32 = 32 ∨ (Rect.block (s := S1024x2048) S256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S1024x2048.size a
  hwx1_4 : ∀ i : grid1.Coords, EltTy.bits .f32 = 32 ∨ (Rect.block (s := S1024x2048) S256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x4096.size a ≤ S2048x4096.size a
  hwx1_5 : ∀ i : grid1.Coords, EltTy.bits .bf16 = 32 ∨ (Rect.block (s := S2048x4096) S1024x4096.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x2048.size a
  hwx1_6 : ∀ i : grid1.Coords, EltTy.bits .f32 = 32 ∨ (Rect.block (s := S1x2048) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x2048.size a
  hwx1_7 : ∀ i : grid1.Coords, EltTy.bits .f32 = 32 ∨ (Rect.block (s := S1x2048) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x2048.size a
  hwx1_8 : ∀ i : grid1.Coords, EltTy.bits .f32 = 32 ∨ (Rect.block (s := S1x2048) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S1024x2048.size a
  hwx1_9 : ∀ i : grid1.Coords, EltTy.bits .f32 = 32 ∨ (Rect.block (s := S1024x2048) S256x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x1024.size a ≤ S1024x2048.size a
  hwx1_10 : ∀ i : grid1.Coords, EltTy.bits .f32 = 32 ∨ (Rect.block (s := S1024x2048) S256x1024.size (cc1_transform_10 i) (hinb1_10 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v3) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x1024.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v11_0) S256x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v11_1) S256x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S2048x4096 : Shape := ⟨2, ![2048, 4096]⟩
abbrev S2048 : Shape := ⟨1, ![2048]⟩
abbrev S1024x4096 : Shape := ⟨2, ![1024, 4096]⟩
abbrev S4096x2048 : Shape := ⟨2, ![4096, 2048]⟩
abbrev S1x2048 : Shape := ⟨2, ![1, 2048]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1024x4096, .f32⟩
  | .hbm, ⟨12, _⟩ => ⟨S4096x2048, .f32⟩
  | .hbm, ⟨13, _⟩ => ⟨S1024x2048, .f32⟩
  | .hbm, ⟨14, _⟩ => ⟨S1x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S4096x2048, .f32⟩
  | .hbm, ⟨26, _⟩ => ⟨S1024x2048, .f32⟩
  | .hbm, ⟨27, _⟩ => ⟨S1x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x4096, .f32⟩
  | .hbm, ⟨40, _⟩ => ⟨S4096x2048, .f32⟩
  | .hbm, ⟨41, _⟩ => ⟨S1024x2048, .f32⟩
  | .hbm, ⟨42, _⟩ => ⟨S1x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S1024x2048, .f32⟩
  | .hbm, ⟨53, _⟩ => ⟨S1x2048, .f32⟩
  | .hbm, ⟨54, _⟩ => ⟨S1024x2048, .f32⟩
  | .hbm, ⟨55, _⟩ => ⟨S1024x2048, .f32⟩
  | .hbm, ⟨56, _⟩ => ⟨S_, .f32⟩
  | .hbm, ⟨57, _⟩ => ⟨S1024x2048, .f32⟩
  | .hbm, ⟨58, _⟩ => ⟨S1024x2048, .f32⟩
  | .hbm, ⟨59, _⟩ => ⟨S_, .f32⟩
  | .hbm, ⟨60, _⟩ => ⟨S1024x2048, .f32⟩
  | .hbm, ⟨61, _⟩ => ⟨S1024x2048, .i1⟩
  | .hbm, ⟨62, _⟩ => ⟨S1024x2048, .f32⟩
  | .hbm, ⟨63, _⟩ => ⟨S1024x2048, .f32⟩
  | .hbm, ⟨64, _⟩ => ⟨S_, .f32⟩
  | .hbm, ⟨65, _⟩ => ⟨S1024x2048, .f32⟩
  | .hbm, ⟨66, _⟩ => ⟨S1024x2048, .i1⟩
  | .hbm, ⟨67, _⟩ => ⟨S1024x2048, .f32⟩
  | .hbm, ⟨68, _⟩ => ⟨S1024x2048, .f32⟩
  | .hbm, ⟨69, _⟩ => ⟨S1x2048, .f32⟩
  | .hbm, ⟨70, _⟩ => ⟨S1024x2048, .f32⟩
  | .hbm, ⟨71, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  concatenates_S1024x2048_S1024x2048_S1024x4096_d1 : Shape.Concatenates [S1024x2048, S1024x2048] S1024x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  dot_S1024x4096_S4096x2048_S1024x2048_1_0_0_1_n_n_wf : DotDims.WF S1024x4096 S4096x2048 S1024x2048 [1] [0] [0] [1] [] []

variable [Facts₀]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf

class Facts : Prop extends Facts₀ where

variable [Facts]
-- ==== Proof.Spec.lean ====
/-
  The gated recurrent cell with threshold gating, as functions of whole arrays at the exact values.

  Arrays are read at the extended reals. For a batch row `b` and a hidden unit `j`, a gate's pre-activation is row
  `b` of the joined input `[x | h]` against row `j` of the gate's weights `W` (2048 input columns, then 2048 hidden
  columns), plus the gate's bias:

      pre x h W β (b, j) = (∑ₖ x(b,k)·W(j,k) + ∑ₖ h(b,k)·W(j,2048+k)) + β(j).

  The update gate is `z = σ(pre x h W_z β_z)` and the reset gate `r = σ(pre x h W_r β_r)`, with `σ v = 1/(1+e⁻ᵛ)`;
  the candidate is `n = tanh(pre x (r·h) W_c β_c)`; the new potential is `p = p₀ + ((1 − z)·h + z·n)`; with
  `g = max(p − θ, 0)` the two results are `[g > 0]·p` and `(p·[g ≤ 0])·δ`, the brackets being the indicator `0` or `1`.

  One program computes the two half sums of `pre` separately and adds them; the other joins the two operands along
  the columns and takes ONE sum over all 4096 columns. `sum_halves` is the law between them: a sum over `Fin 4096` is
  the sum of its two halves. It uses only that addition of extended reals is commutative and associative, so it holds
  whatever the entries are, infinite ones included: nothing below needs the inputs to be finite.
-/
import Idealize.ShloMosaic.PureOps.Ideal
import Idealize.ShloMosaic.PureOps.Ideal.Laws
import Idealize.ShloMosaic.Lib.ValueIdx

noncomputable section

namespace Cert.GatedCell

open Idealize.ShloMosaic Idealize.ShloMosaic.ValueIdx

/-- The shape of a batch of rows: 1024 rows of 2048 entries (inputs, states, potentials, results). -/
abbrev Rows : Shape := ⟨2, ![1024, 2048]⟩
/-- The shape of a gate's weights: 2048 hidden units, each against 2048 input and 2048 hidden columns. -/
abbrev Wts : Shape := ⟨2, ![2048, 4096]⟩
/-- The shape of a per-unit vector laid out as one row. -/
abbrev OneRow : Shape := ⟨2, ![1, 2048]⟩

/-- Column `k` of the input half of a weight row. -/
abbrev lo (k : Fin 2048) : Fin 4096 := ⟨k.val, by omega⟩
/-- Column `k` of the hidden half of a weight row. -/
abbrev hi (k : Fin 2048) : Fin 4096 := ⟨2048 + k.val, by omega⟩

/-- The float constants the two programs share, as the words they are printed with. -/
abbrev one : EReal := Ideal.ofBits .f32 0x3F800000#32
abbrev zero : EReal := Ideal.ofBits .f32 0x00000000#32

/-- A gate's pre-activation at row `b`, unit `j`: the two half sums, then the bias. -/
def pre (X H : Rows.Idx → EReal) (W : Wts.Idx → EReal) (B : OneRow.Idx → EReal) (b : Fin 1024) (j : Fin 2048) : EReal :=
  ((∑ k : Fin 2048, X (ix2 b k) * W (ix2 j (lo k))) + (∑ k : Fin 2048, H (ix2 b k) * W (ix2 j (hi k))))
    + B (ix2 (0 : Fin 1) j)

/-- The update gate `z`. -/
def gateZ (X H : Rows.Idx → EReal) (Wz : Wts.Idx → EReal) (Bz : OneRow.Idx → EReal) : Rows.Idx → EReal :=
  fun i => Ideal.logistic (pre X H Wz Bz (i 0) (i 1))

/-- The reset gate applied to the state, `r·h`; the state it multiplies (`Hf`) is passed apart from the one
    inside the gate (`H`): the two are read from different arrays. -/
def resetState (X H Hf : Rows.Idx → EReal) (Wr : Wts.Idx → EReal) (Br : OneRow.Idx → EReal) : Rows.Idx → EReal :=
  fun i => Ideal.logistic (pre X H Wr Br (i 0) (i 1)) * Hf i

/-- The new potential `p₀ + ((1 − z)·h + z·tanh(pre x (r·h) W_c β_c))`. -/
def potential (X RH Hf Z P : Rows.Idx → EReal) (Wc : Wts.Idx → EReal) (Bc : OneRow.Idx → EReal) : Rows.Idx → EReal :=
  fun i => P i + ((one - Z i) * Hf i + Z i * Ideal.tanh (pre X RH Wc Bc (i 0) (i 1)))

/-- The potential above its unit's threshold, cut off at zero. -/
def excess (Pn : Rows.Idx → EReal) (T : OneRow.Idx → EReal) : Rows.Idx → EReal :=
  fun i => max (Pn i - T (ix2 (0 : Fin 1) (i 1))) zero

/-- First result: the potential where it exceeds the threshold, zero elsewhere. -/
def fired (Pn : Rows.Idx → EReal) (T : OneRow.Idx → EReal) : Rows.Idx → EReal :=
  fun i => (((Ideal.cmp .ogt (excess Pn T i) zero).toNat : ℝ) : EReal) * Pn i

/-- Second result: the potential where it does not exceed the threshold, decayed by its unit's rate. -/
def leaked (Pn : Rows.Idx → EReal) (T D : OneRow.Idx → EReal) : Rows.Idx → EReal :=
  fun i => (Pn i * (((Ideal.cmp .ole (excess Pn T i) zero).toNat : ℝ) : EReal)) * D (ix2 (0 : Fin 1) (i 1))

/-- The shape of a per-unit vector. -/
abbrev Units : Shape := ⟨1, ![2048]⟩

/-- A per-unit vector laid out as one row: entry `(0, j)` is entry `j`. -/
def asRow (v : Units.Idx → EReal) : OneRow.Idx → EReal := fun i => v (ix1 (i 1))

/-- The whole cell's new potential, from the eleven inputs' first nine: input `x`, state `h`, potential `p`, and the
    three gates' weights and biases. The reset gate's product `r·h` feeds the candidate's hidden half. -/
def cellPotential (x h p : Rows.Idx → EReal) (Wr : Wts.Idx → EReal) (br : Units.Idx → EReal) (Wz : Wts.Idx → EReal)
    (bz : Units.Idx → EReal) (Wc : Wts.Idx → EReal) (bc : Units.Idx → EReal) : Rows.Idx → EReal :=
  potential x (resetState x h h Wr (asRow br)) h (gateZ x h Wz (asRow bz)) p Wc (asRow bc)

/-- The cell's first result, with the thresholds `θ`. -/
def cellFired (x h p : Rows.Idx → EReal) (Wr : Wts.Idx → EReal) (br : Units.Idx → EReal) (Wz : Wts.Idx → EReal)
    (bz : Units.Idx → EReal) (Wc : Wts.Idx → EReal) (bc θ : Units.Idx → EReal) : Rows.Idx → EReal :=
  fired (cellPotential x h p Wr br Wz bz Wc bc) (asRow θ)

/-- The cell's second result, with the thresholds `θ` and the decay rates `δ`. -/
def cellLeaked (x h p : Rows.Idx → EReal) (Wr : Wts.Idx → EReal) (br : Units.Idx → EReal) (Wz : Wts.Idx → EReal)
    (bz : Units.Idx → EReal) (Wc : Wts.Idx → EReal) (bc θ δ : Units.Idx → EReal) : Rows.Idx → EReal :=
  leaked (cellPotential x h p Wr br Wz bz Wc bc) (asRow θ) (asRow δ)

/-- A sum over all 4096 columns is the sum over the input half plus the sum over the hidden half. -/
theorem sum_halves (f : Fin 4096 → EReal) :
    ∑ k : Fin 4096, f k = (∑ k : Fin 2048, f (lo k)) + ∑ k : Fin 2048, f (hi k) :=
  Fin.sum_univ_add (a := 2048) (b := 2048) f

end Cert.GatedCell

end
-- ==== Proof.KernelRun.lean ====
/-
  The idealized kernel's run with its two results named.

  @main is three segments: a stretch of host operations (five changes of float format and five reshapes), the gate
  kernel's region and the update kernel's region. The generated frame folds the buffer contents through the three
  segments (`W0`, `W1`, `W2`, `W3`) and proves that every weakly fair execution ends with every unscoped buffer at
  the last contents `W3`; of that it keeps only the eleven argument arrays. Here the same run keeps, beside them, the
  two result arrays: they end at `W3` read at their own buffers. What `W3` holds there is the subject of the
  modules that follow.
-/
import proofs.«103545_j13340168421984_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two results end at the last segment
    boundary's contents and the eleven arguments as launched. -/
theorem run : θ_run defs (onTc (τ := τ) (main (F := F))) ⟨m, fun _ => 0, ρ⟩ (fun r => ∀ c : Dev nD,
      r.2.mem ((c.tc : Thread nD τ).loc main_v11_0) = W3 m ρ c (Proc.devRef .tc main_v11_0)
      ∧ r.2.mem ((c.tc : Thread nD τ).loc main_v11_1) = W3 m ρ c (Proc.devRef .tc main_v11_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11_0 (by decide)),
       h c _ (mem_uc main_v11_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.Results

end
-- ==== Proof.Gates.lean ====
/-
  The gate kernel's region: what its two output arrays hold when the region is left.

  The region runs a 4 × 4 grid; point `(u, v)` works on batch rows `256·v … 256·v + 255` and hidden units
  `512·u … 512·u + 511`. Its blocks are: those batch rows of the input and of the state, whole (2048 columns each);
  the state's tile (those rows, those units); the two gates' weight rows for those units, whole (4096 columns, read
  as an input half and a hidden half); the two biases' entries for those units. It writes the update gate's tile and
  the tile of the reset gate times the state.

  First the arithmetic of one point, over arbitrary blocks: entry `(p, q)` of a block product is the sum over the 2048
  contracted columns of row `p` of the left block against row `q` of the right block, so entry `(p, q)` of the update
  gate's tile is `σ((∑ₖ x(p,k)·W(q,k) + ∑ₖ h(p,k)·W(q,2048+k)) + β(0,q))`. Then each block is read off its array at
  the point's offsets, which turns the tile into the tile of ONE function of the whole arrays
  (`Cert.GatedCell.gateZ`, `resetState`); the sixteen tiles cover the array, so the array ends holding that function.
-/
import proofs.«103545_j13340168421984_2_alg».proof.Proof.Gen.KernelIdeal.Frame
import proofs.«103545_j13340168421984_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gates

open Cert.KernelIdeal Cert.KernelIdeal.Gen Cert.GatedCell
open Idealize.ShloMosaic Idealize.ShloMosaic.TcCoe Idealize.ShloMosaic.ValueIdx Idealize.SL.Sem
open Idealize.ShloMosaic.Pipeline (Dat Cfg Window)

/-! ## One point's arithmetic -/

/-- The product's operand indices at an output entry and a contracted column, coordinate by coordinate: the left
    operand is read at (the entry's row, the column), the right at (the entry's column, the column). -/
theorem left_row (i : S256x512.Idx) (c : dot_S256x2048_S512x2048_S256x512_1_1_0_0_n_n.contr.Idx) : (dot_S256x2048_S512x2048_S256x512_1_1_0_0_n_n.lhsIdx i c 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem left_col (i : S256x512.Idx) (c : dot_S256x2048_S512x2048_S256x512_1_1_0_0_n_n.contr.Idx) : (dot_S256x2048_S512x2048_S256x512_1_1_0_0_n_n.lhsIdx i c 1).val = (c ⟨0, by decide⟩).val :=
  dot_S256x2048_S512x2048_S256x512_1_1_0_0_n_n.lhsIdx_val_of_single rfl i c
theorem right_row (i : S256x512.Idx) (c : dot_S256x2048_S512x2048_S256x512_1_1_0_0_n_n.contr.Idx) : (dot_S256x2048_S512x2048_S256x512_1_1_0_0_n_n.rhsIdx i c 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem right_col (i : S256x512.Idx) (c : dot_S256x2048_S512x2048_S256x512_1_1_0_0_n_n.contr.Idx) : (dot_S256x2048_S512x2048_S256x512_1_1_0_0_n_n.rhsIdx i c 1).val = (c ⟨0, by decide⟩).val :=
  dot_S256x2048_S512x2048_S256x512_1_1_0_0_n_n.rhsIdx_val_of_single rfl i c

/-- Entry `(p, q)` of the product of a 256 × 2048 block with a 512 × 2048 block, contracted along the columns
    of both and accumulated into zeros: row `p` of the left against row `q` of the right. -/
theorem product_entry (l : FVec Ideal S256x2048 .bf16) (r : FVec Ideal S512x2048 .bf16) (p : Fin 256) (q : Fin 512) :
    matmul dot_S256x2048_S512x2048_S256x512_1_1_0_0_n_n none l r (constant (F := Ideal) S256x512 .f32 0x00000000#32) (ix2 p q)
      = ∑ k : Fin 2048, l (ix2 p k) * r (ix2 q k) := by
  refine (Ideal.matmul_constant_zero_apply dot_S256x2048_S512x2048_S256x512_1_1_0_0_n_n none l r (ix2 p q)).trans ?_
  rw [← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 p q) ((contrEquiv1 dot_S256x2048_S512x2048_S256x512_1_1_0_0_n_n 2048 rfl rfl).symm k) = ix2 p k := funext fun a => Fin.ext (by
    match a with
    | ⟨0, _⟩ => exact left_row _ _
    | ⟨1, _⟩ => exact (left_col _ _).trans hk)
  have er : dot_S256x2048_S512x2048_S256x512_1_1_0_0_n_n.rhsIdx (ix2 p q) ((contrEquiv1 dot_S256x2048_S512x2048_S256x512_1_1_0_0_n_n 2048 rfl rfl).symm k) = ix2 q k := funext fun a => Fin.ext (by
    match a with
    | ⟨0, _⟩ => exact right_row _ _
    | ⟨1, _⟩ => exact (right_col _ _).trans hk)
  rw [el, er]

/-- The input half of a 512 × 4096 weight block, at `(q, k)`: the block at `(q, k)`. -/
theorem input_half (w : Vec Ideal S512x4096 .bf16) (q : Fin 512) (k : Fin 2048) :
    View.ld w r0_1 (ix2 q k) = w (ix2 q (⟨k.val, by omega⟩ : Fin 4096)) :=
  congrArg w (funext fun a => Fin.ext (by
    match a with
    | ⟨0, _⟩ => show 0 + 1 * q.val = q.val; omega
    | ⟨1, _⟩ => show 0 + 1 * k.val = k.val; omega))

/-- The hidden half of a 512 × 4096 weight block, at `(q, k)`: the block at `(q, 2048 + k)`. -/
theorem hidden_half (w : Vec Ideal S512x4096 .bf16) (q : Fin 512) (k : Fin 2048) :
    View.ld w r0_2 (ix2 q k) = w (ix2 q (⟨2048 + k.val, by omega⟩ : Fin 4096)) :=
  congrArg w (funext fun a => Fin.ext (by
    match a with
    | ⟨0, _⟩ => show 0 + 1 * q.val = q.val; omega
    | ⟨1, _⟩ => show 2048 + 1 * k.val = 2048 + k.val; omega))

/-! ## The two tiles, from the point's blocks -/

/-- The two zero offsets, however they are spelt. -/
theorem zeros : (![0, 0] : Fin 2 → Nat) = fun _ => 0 := funext fun a => by fin_cases a <;> rfl

/-- Entry `(p, q)` of the update gate's tile: the logistic of the two half sums over the point's input rows, state
    rows and the gate's weight rows, plus the bias entry. -/
theorem update_tile (x0 x1 : Vec Ideal S256x2048 .bf16) (x2 : Vec Ideal S256x512 .f32) (x3 x4 : Vec Ideal S512x4096 .bf16)
    (x5 x6 : Vec Ideal S1x512 .f32) (p : Fin 256) (q : Fin 512) :
    out0_7 x0 x1 x2 x3 x4 x5 x6 (ix2 p q)
      = Ideal.logistic (((∑ k : Fin 2048, x0 (ix2 p k) * x4 (ix2 q (⟨k.val, by omega⟩ : Fin 4096)))
          + (∑ k : Fin 2048, x1 (ix2 p k) * x4 (ix2 q (⟨2048 + k.val, by omega⟩ : Fin 4096)))) + x6 (ix2 (0 : Fin 1) q)) := by
  unfold out0_7
  rw [View.canon_unit_zero zeros]
  unfold k0_pay3 k0_pay1 k0_pay2
  simp only [shapeCast_self, View.ld_unit_zero (S := S256x2048) zeros, View.ld_unit_zero (S := S1x512) zeros]
  show Ideal.logistic ((_ + _) + _) = _
  rw [product_entry, product_entry, broadcastTo_1b_ab_apply]
  exact congrArg Ideal.logistic (congrArg₂ (· + ·) (congrArg₂ (· + ·)
    (Finset.sum_congr rfl fun k _ => congrArg (x0 (ix2 p k) * ·) (input_half x4 q k))
    (Finset.sum_congr rfl fun k _ => congrArg (x1 (ix2 p k) * ·) (hidden_half x4 q k))) rfl)

/-- Entry `(p, q)` of the tile of the reset gate times the state: the same with the reset gate's weights and bias,
    times the state's tile at `(p, q)` (the change of float format on the way out is the identity). -/
theorem reset_tile (x0 x1 : Vec Ideal S256x2048 .bf16) (x2 : Vec Ideal S256x512 .f32) (x3 x4 : Vec Ideal S512x4096 .bf16)
    (x5 x6 : Vec Ideal S1x512 .f32) (p : Fin 256) (q : Fin 512) :
    out0_8 x0 x1 x2 x3 x4 x5 x6 (ix2 p q)
      = Ideal.logistic (((∑ k : Fin 2048, x0 (ix2 p k) * x3 (ix2 q (⟨k.val, by omega⟩ : Fin 4096)))
          + (∑ k : Fin 2048, x1 (ix2 p k) * x3 (ix2 q (⟨2048 + k.val, by omega⟩ : Fin 4096)))) + x5 (ix2 (0 : Fin 1) q))
        * x2 (ix2 p q) := by
  unfold out0_8
  rw [View.canon_unit_zero zeros]
  unfold k0_pay4 k0_pay1 k0_pay2
  simp only [shapeCast_self, View.ld_unit_zero (S := S256x2048) zeros, View.ld_unit_zero (S := S1x512) zeros,
    View.ld_unit_zero (S := S256x512) zeros]
  show Ideal.logistic ((_ + _) + _) * _ = _
  rw [product_entry, product_entry, broadcastTo_1b_ab_apply]
  exact congrArg (· * x2 (ix2 p q)) (congrArg Ideal.logistic (congrArg₂ (· + ·) (congrArg₂ (· + ·)
    (Finset.sum_congr rfl fun k _ => congrArg (x0 (ix2 p k) * ·) (input_half x3 q k))
    (Finset.sum_congr rfl fun k _ => congrArg (x1 (ix2 p k) * ·) (hidden_half x3 q k))) rfl))

/-! ## The blocks, read off their arrays -/

section Arrays

variable (V : (c : Dev nD) → (b : Ref sig .tc) → Buf (Elt Ideal) ((c : Thread nD τ).loc b))

/-- The printed index maps over the sixteen points: every input block moves with the output tile's row block or
    its unit block, or stays at zero; the two output windows move together; the tile indices stay below four. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2)
    ∧ win0_3.index t (0 : Fin 2) = win0_7.index t (1 : Fin 2) ∧ win0_3.index t (1 : Fin 2) = 0
    ∧ win0_4.index t (0 : Fin 2) = win0_7.index t (1 : Fin 2) ∧ win0_4.index t (1 : Fin 2) = 0
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 3 ∧ win0_7.index t (1 : Fin 2) ≤ 3 :=
  (by decide +kernel : ∀ t : Fin grid0.N, _)

/-- Every tile of the 4 × 4 tiling is some point's. -/
theorem tiles_onto : ∀ (q0 : Fin 4) (q1 : Fin 4), ∃ t : Fin cfg0.N, win0_7.index t = ![q0.val, q1.val] :=
  (by decide +kernel : ∀ (q0 : Fin 4) (q1 : Fin 4), ∃ t : Fin grid0.N, win0_7.index t = ![q0.val, q1.val])

/-- Row `p` of the point's input rows is row `b` of the input array, when `b` is the tile's row `p`. -/
theorem input_rows (c : Dev nD) (t : Fin cfg0.N) (p : Fin 256) (k : Fin 2048) (b : Fin 1024)
    (hb : b.val = win0_7.index t (0 : Fin 2) * 256 + p.val) :
    iblk0 V c 0 t (ix2 p k) = (V c main_v3 : S1024x2048.Idx → EReal) (ix2 b k) := by
  obtain ⟨e00, e01, -⟩ := index_facts t
  show (V c main_v3 : S1024x2048.Idx → EReal) (((cfg0.win 0).blk t).view.emb (ix2 p k)) = _
  refine congrArg (V c main_v3 : S1024x2048.Idx → EReal) (funext fun a => Fin.ext ?_)
  match a with
  | ⟨0, _⟩ => show win0_0.index t (0 : Fin 2) * 256 + 1 * p.val = b.val; omega
  | ⟨1, _⟩ => show win0_0.index t (1 : Fin 2) * 2048 + 1 * k.val = k.val; omega

/-- Row `p` of the point's state rows is row `b` of the state array (the one in the matrix products). -/
theorem state_rows (c : Dev nD) (t : Fin cfg0.N) (p : Fin 256) (k : Fin 2048) (b : Fin 1024)
    (hb : b.val = win0_7.index t (0 : Fin 2) * 256 + p.val) :
    iblk0 V c 1 t (ix2 p k) = (V c main_v4 : S1024x2048.Idx → EReal) (ix2 b k) := by
  obtain ⟨e00, e01, e10, e11, e20, e21, e30, e31, e40, e41, e50, e51, e60, e61, e80, e81, h0, h1⟩ := index_facts t
  show (V c main_v4 : S1024x2048.Idx → EReal) (((cfg0.win 1).blk t).view.emb (ix2 p k)) = _
  refine congrArg (V c main_v4 : S1024x2048.Idx → EReal) (funext fun a => Fin.ext ?_)
  match a with
  | ⟨0, _⟩ => show win0_1.index t (0 : Fin 2) * 256 + 1 * p.val = b.val; omega
  | ⟨1, _⟩ => show win0_1.index t (1 : Fin 2) * 2048 + 1 * k.val = k.val; omega

/-- Entry `(p, q)` of the point's state tile is entry `(b, j)` of the state array. -/
theorem state_tile (c : Dev nD) (t : Fin cfg0.N) (p : Fin 256) (q : Fin 512) (b : Fin 1024) (j : Fin 2048)
    (hb : b.val = win0_7.index t (0 : Fin 2) * 256 + p.val) (hj : j.val = win0_7.index t (1 : Fin 2) * 512 + q.val) :
    iblk0 V c 2 t (ix2 p q) = (V c main_arg1 : S1024x2048.Idx → EReal) (ix2 b j) := by
  obtain ⟨e00, e01, e10, e11, e20, e21, e30, e31, e40, e41, e50, e51, e60, e61, e80, e81, h0, h1⟩ := index_facts t
  show (V c main_arg1 : S1024x2048.Idx → EReal) (((cfg0.win 2).blk t).view.emb (ix2 p q)) = _
  refine congrArg (V c main_arg1 : S1024x2048.Idx → EReal) (funext fun a => Fin.ext ?_)
  match a with
  | ⟨0, _⟩ => show win0_2.index t (0 : Fin 2) * 256 + 1 * p.val = b.val; omega
  | ⟨1, _⟩ => show win0_2.index t (1 : Fin 2) * 512 + 1 * q.val = j.val; omega

/-- Row `q` of the point's reset-gate weight rows is row `j` of the reset gate's weights. -/
theorem reset_weights (c : Dev nD) (t : Fin cfg0.N) (q : Fin 512) (k : Fin 4096) (j : Fin 2048)
    (hj : j.val = win0_7.index t (1 : Fin 2) * 512 + q.val) :
    iblk0 V c 3 t (ix2 q k) = (V c main_v0 : S2048x4096.Idx → EReal) (ix2 j k) := by
  obtain ⟨e00, e01, e10, e11, e20, e21, e30, e31, e40, e41, e50, e51, e60, e61, e80, e81, h0, h1⟩ := index_facts t
  show (V c main_v0 : S2048x4096.Idx → EReal) (((cfg0.win 3).blk t).view.emb (ix2 q k)) = _
  refine congrArg (V c main_v0 : S2048x4096.Idx → EReal) (funext fun a => Fin.ext ?_)
  match a with
  | ⟨0, _⟩ => show win0_3.index t (0 : Fin 2) * 512 + 1 * q.val = j.val; omega
  | ⟨1, _⟩ => show win0_3.index t (1 : Fin 2) * 4096 + 1 * k.val = k.val; omega

/-- Row `q` of the point's update-gate weight rows is row `j` of the update gate's weights. -/
theorem update_weights (c : Dev nD) (t : Fin cfg0.N) (q : Fin 512) (k : Fin 4096) (j : Fin 2048)
    (hj : j.val = win0_7.index t (1 : Fin 2) * 512 + q.val) :
    iblk0 V c 4 t (ix2 q k) = (V c main_v1 : S2048x4096.Idx → EReal) (ix2 j k) := by
  obtain ⟨e00, e01, e10, e11, e20, e21, e30, e31, e40, e41, e50, e51, e60, e61, e80, e81, h0, h1⟩ := index_facts t
  show (V c main_v1 : S2048x4096.Idx → EReal) (((cfg0.win 4).blk t).view.emb (ix2 q k)) = _
  refine congrArg (V c main_v1 : S2048x4096.Idx → EReal) (funext fun a => Fin.ext ?_)
  match a with
  | ⟨0, _⟩ => show win0_4.index t (0 : Fin 2) * 512 + 1 * q.val = j.val; omega
  | ⟨1, _⟩ => show win0_4.index t (1 : Fin 2) * 4096 + 1 * k.val = k.val; omega

/-- Entry `q` of the point's reset-gate bias entries is entry `j` of the reset gate's bias row. -/
theorem reset_bias (c : Dev nD) (t : Fin cfg0.N) (q : Fin 512) (j : Fin 2048)
    (hj : j.val = win0_7.index t (1 : Fin 2) * 512 + q.val) :
    iblk0 V c 5 t (ix2 (0 : Fin 1) q) = (V c main_v5 : S1x2048.Idx → EReal) (ix2 (0 : Fin 1) j) := by
  obtain ⟨e00, e01, e10, e11, e20, e21, e30, e31, e40, e41, e50, e51, e60, e61, e80, e81, h0, h1⟩ := index_facts t
  show (V c main_v5 : S1x2048.Idx → EReal) (((cfg0.win 5).blk t).view.emb (ix2 (0 : Fin 1) q)) = _
  refine congrArg (V c main_v5 : S1x2048.Idx → EReal) (funext fun a => Fin.ext ?_)
  match a with
  | ⟨0, _⟩ => show win0_5.index t (0 : Fin 2) * 1 + 1 * 0 = 0; omega
  | ⟨1, _⟩ => show win0_5.index t (1 : Fin 2) * 512 + 1 * q.val = j.val; omega

/-- Entry `q` of the point's update-gate bias entries is entry `j` of the update gate's bias row. -/
theorem update_bias (c : Dev nD) (t : Fin cfg0.N) (q : Fin 512) (j : Fin 2048)
    (hj : j.val = win0_7.index t (1 : Fin 2) * 512 + q.val) :
    iblk0 V c 6 t (ix2 (0 : Fin 1) q) = (V c main_v6 : S1x2048.Idx → EReal) (ix2 (0 : Fin 1) j) := by
  obtain ⟨e00, e01, e10, e11, e20, e21, e30, e31, e40, e41, e50, e51, e60, e61, e80, e81, h0, h1⟩ := index_facts t
  show (V c main_v6 : S1x2048.Idx → EReal) (((cfg0.win 6).blk t).view.emb (ix2 (0 : Fin 1) q)) = _
  refine congrArg (V c main_v6 : S1x2048.Idx → EReal) (funext fun a => Fin.ext ?_)
  match a with
  | ⟨0, _⟩ => show win0_6.index t (0 : Fin 2) * 1 + 1 * 0 = 0; omega
  | ⟨1, _⟩ => show win0_6.index t (1 : Fin 2) * 512 + 1 * q.val = j.val; omega

/-- Entry `(p, q)` of the update gate's tile at point `t` sits at `(b, j)` of the array. -/
theorem update_coords (t : Fin cfg0.N) (p : Fin 256) (q : Fin 512) (b : Fin 1024) (j : Fin 2048)
    (hb : b.val = win0_7.index t (0 : Fin 2) * 256 + p.val) (hj : j.val = win0_7.index t (1 : Fin 2) * 512 + q.val) :
    (((cfg0.win 7).blk t).view.emb (ix2 p q) : S1024x2048.Idx) = ix2 b j := by
  funext a; apply Fin.ext
  match a with
  | ⟨0, _⟩ => show win0_7.index t (0 : Fin 2) * 256 + 1 * p.val = b.val; omega
  | ⟨1, _⟩ => show win0_7.index t (1 : Fin 2) * 512 + 1 * q.val = j.val; omega

/-- An index of the array is in point `t`'s tile iff each coordinate is in the tile's range on its axis. -/
theorem update_mem (t : Fin cfg0.N) (i : S1024x2048.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v10_0).slice (win0_7.rect t)).set ↔ _
  rw [View.set_slice_whole, Rect.mem_set_unit]
  exact Iff.rfl

/-- Every index of the array is in some point's tile: the tile of its row block and its unit block. -/
theorem update_covered (i : S1024x2048.Idx) : ∃ t : Fin cfg0.N, (cfg0.win 7).flush t = true ∧ i ∈ ((cfg0.win 7).blk t).view.set := by
  have hi0 : (i 0).val < 1024 := (i 0).isLt
  have hi1 : (i 1).val < 2048 := (i 1).isLt
  obtain ⟨t, ht⟩ := tiles_onto ⟨(i 0).val / 256, by omega⟩ ⟨(i 1).val / 512, by omega⟩
  obtain ⟨e00, e01, e10, e11, e20, e21, e30, e31, e40, e41, e50, e51, e60, e61, e80, e81, h0, h1⟩ := index_facts t
  have q0 : win0_7.index t (0 : Fin 2) = (i 0).val / 256 := congrFun ht 0
  have q1 : win0_7.index t (1 : Fin 2) = (i 1).val / 512 := congrFun ht 1
  refine ⟨t, flush0_7 t, ?_⟩
  rw [update_mem]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

/-- Entry `(p, q)` of the reset gate times the state's tile at point `t` sits at `(b, j)` of the array. -/
theorem reset_coords (t : Fin cfg0.N) (p : Fin 256) (q : Fin 512) (b : Fin 1024) (j : Fin 2048)
    (hb : b.val = win0_8.index t (0 : Fin 2) * 256 + p.val) (hj : j.val = win0_8.index t (1 : Fin 2) * 512 + q.val) :
    (((cfg0.win 8).blk t).view.emb (ix2 p q) : S1024x2048.Idx) = ix2 b j := by
  funext a; apply Fin.ext
  match a with
  | ⟨0, _⟩ => show win0_8.index t (0 : Fin 2) * 256 + 1 * p.val = b.val; omega
  | ⟨1, _⟩ => show win0_8.index t (1 : Fin 2) * 512 + 1 * q.val = j.val; omega

/-- An index of the array is in point `t`'s tile iff each coordinate is in the tile's range on its axis. -/
theorem reset_mem (t : Fin cfg0.N) (i : S1024x2048.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v10_1).slice (win0_8.rect t)).set ↔ _
  rw [View.set_slice_whole, Rect.mem_set_unit]
  exact Iff.rfl

/-- Every index of the array is in some point's tile: the tile of its row block and its unit block. -/
theorem reset_covered (i : S1024x2048.Idx) : ∃ t : Fin cfg0.N, (cfg0.win 8).flush t = true ∧ i ∈ ((cfg0.win 8).blk t).view.set := by
  have hi0 : (i 0).val < 1024 := (i 0).isLt
  have hi1 : (i 1).val < 2048 := (i 1).isLt
  obtain ⟨t, ht⟩ := tiles_onto ⟨(i 0).val / 256, by omega⟩ ⟨(i 1).val / 512, by omega⟩
  obtain ⟨e00, e01, e10, e11, e20, e21, e30, e31, e40, e41, e50, e51, e60, e61, e80, e81, h0, h1⟩ := index_facts t
  have q0 : win0_7.index t (0 : Fin 2) = (i 0).val / 256 := congrFun ht 0
  have q1 : win0_7.index t (1 : Fin 2) = (i 1).val / 512 := congrFun ht 1
  refine ⟨t, flush0_8 t, ?_⟩
  rw [reset_mem]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 512 ≤ (i 1).val ∧ (i 1).val < win0_8.index t (1 : Fin 2) * 512 + 512; omega

/-- What point `t` writes back for the update gate is tile `t` of the update gate of the whole arrays. -/
theorem update_flushed (c : Dev nD) (t : Fin cfg0.N) :
    (dat0 V c).flushed 7 t = ((cfg0.win 7).blk t).view.read (Elt Ideal)
      (gateZ (V c main_v3) (V c main_v4) (V c main_v1) (V c main_v6)) := by
  show (cfg0.win 7).cut (grid0.coords t) ((dat0 V c).after 7 t) = _
  rw [after0_7]
  funext y
  obtain ⟨p, q, rfl⟩ : ∃ (p : Fin 256) (q : Fin 512), y = ix2 p q := ⟨y 0, y 1, eq_ix2 y⟩
  obtain ⟨e00, e01, e10, e11, e20, e21, e30, e31, e40, e41, e50, e51, e60, e61, e80, e81, h0, h1⟩ := index_facts t
  have hp := p.isLt; have hq := q.isLt
  obtain ⟨b, hb⟩ : ∃ b : Fin 1024, b.val = win0_7.index t (0 : Fin 2) * 256 + p.val := ⟨⟨_, by omega⟩, rfl⟩
  obtain ⟨j, hj⟩ : ∃ j : Fin 2048, j.val = win0_7.index t (1 : Fin 2) * 512 + q.val := ⟨⟨_, by omega⟩, rfl⟩
  show out0_7 (iblk0 V c 0 t) (iblk0 V c 1 t) (iblk0 V c 2 t) (iblk0 V c 3 t) (iblk0 V c 4 t) (iblk0 V c 5 t) (iblk0 V c 6 t) (ix2 p q)
    = gateZ (V c main_v3) (V c main_v4) (V c main_v1) (V c main_v6) (((cfg0.win 7).blk t).view.emb (ix2 p q))
  rw [update_coords t p q b j hb hj]
  refine (update_tile (iblk0 V c 0 t) (iblk0 V c 1 t) (iblk0 V c 2 t) (iblk0 V c 3 t) (iblk0 V c 4 t) (iblk0 V c 5 t) (iblk0 V c 6 t) p q).trans ?_
  show Ideal.logistic _ = Ideal.logistic (pre (V c main_v3) (V c main_v4) (V c main_v1) (V c main_v6) b j)
  unfold pre
  refine congrArg Ideal.logistic (congrArg₂ (· + ·) (congrArg₂ (· + ·)
    (Finset.sum_congr rfl fun k _ => ?_) (Finset.sum_congr rfl fun k _ => ?_)) ?_)
  · rw [input_rows V c t p k b hb, update_weights V c t q _ j hj]
  · rw [state_rows V c t p k b hb, update_weights V c t q _ j hj]
  · exact update_bias V c t q j hj

/-- What point `t` writes back for the reset gate times the state is tile `t` of that product of the whole arrays. -/
theorem reset_flushed (c : Dev nD) (t : Fin cfg0.N) :
    (dat0 V c).flushed 8 t = ((cfg0.win 8).blk t).view.read (Elt Ideal)
      (resetState (V c main_v3) (V c main_v4) (V c main_arg1) (V c main_v0) (V c main_v5)) := by
  show (cfg0.win 8).cut (grid0.coords t) ((dat0 V c).after 8 t) = _
  rw [after0_8]
  funext y
  obtain ⟨p, q, rfl⟩ : ∃ (p : Fin 256) (q : Fin 512), y = ix2 p q := ⟨y 0, y 1, eq_ix2 y⟩
  obtain ⟨e00, e01, e10, e11, e20, e21, e30, e31, e40, e41, e50, e51, e60, e61, e80, e81, h0, h1⟩ := index_facts t
  have hp := p.isLt; have hq := q.isLt
  obtain ⟨b, hb⟩ : ∃ b : Fin 1024, b.val = win0_7.index t (0 : Fin 2) * 256 + p.val := ⟨⟨_, by omega⟩, rfl⟩
  obtain ⟨j, hj⟩ : ∃ j : Fin 2048, j.val = win0_7.index t (1 : Fin 2) * 512 + q.val := ⟨⟨_, by omega⟩, rfl⟩
  show out0_8 (iblk0 V c 0 t) (iblk0 V c 1 t) (iblk0 V c 2 t) (iblk0 V c 3 t) (iblk0 V c 4 t) (iblk0 V c 5 t) (iblk0 V c 6 t) (ix2 p q)
    = resetState (V c main_v3) (V c main_v4) (V c main_arg1) (V c main_v0) (V c main_v5) (((cfg0.win 8).blk t).view.emb (ix2 p q))
  rw [reset_coords t p q b j (by omega) (by omega)]
  refine (reset_tile (iblk0 V c 0 t) (iblk0 V c 1 t) (iblk0 V c 2 t) (iblk0 V c 3 t) (iblk0 V c 4 t) (iblk0 V c 5 t) (iblk0 V c 6 t) p q).trans ?_
  show Ideal.logistic _ * _ = Ideal.logistic (pre (V c main_v3) (V c main_v4) (V c main_v0) (V c main_v5) b j) * (V c main_arg1 : S1024x2048.Idx → EReal) (ix2 b j)
  unfold pre
  refine congrArg₂ (· * ·) (congrArg Ideal.logistic (congrArg₂ (· + ·) (congrArg₂ (· + ·)
    (Finset.sum_congr rfl fun k _ => ?_) (Finset.sum_congr rfl fun k _ => ?_)) ?_)) ?_
  · rw [input_rows V c t p k b hb, reset_weights V c t q _ j hj]
  · rw [state_rows V c t p k b hb, reset_weights V c t q _ j hj]
  · exact reset_bias V c t q j hj
  · exact state_tile V c t p q b j hb hj

/-- When the region is left the update gate's array holds the update gate of the arrays the region found. -/
theorem update_array (c : Dev nD) :
    (dat0 V c).arrAt 7 cfg0.N = gateZ (V c main_v3) (V c main_v4) (V c main_v1) (V c main_v6) :=
  (dat0 V c).arrAt_eq_of_cover 7 _ (fun t _ => update_flushed V c t) update_covered

/-- When the region is left the second array holds the reset gate times the state, of the arrays the region found. -/
theorem reset_array (c : Dev nD) :
    (dat0 V c).arrAt 8 cfg0.N = resetState (V c main_v3) (V c main_v4) (V c main_arg1) (V c main_v0) (V c main_v5) :=
  (dat0 V c).arrAt_eq_of_cover 8 _ (fun t _ => reset_flushed V c t) reset_covered

end Arrays

end Cert.KernelIdeal.Gates

end
-- ==== Proof.Update.lean ====
/-
  The update kernel's region: what its two output arrays hold when the region is left.

  The region runs a 2 × 4 grid; point `(u, v)` works on batch rows `256·v … 256·v + 255` and hidden units
  `1024·u … 1024·u + 1023`. Its blocks are: those batch rows of the input and of the reset gate's product with the
  state, whole (2048 columns each); the tiles (those rows, those units) of the state, of the update gate and of the
  previous potential; the candidate's weight rows for those units, whole (4096 columns, read as an input half and a
  hidden half); the entries for those units of the candidate's bias, of the thresholds and of the decay rates.

  One point's arithmetic, at entry `(p, q)` of the tile: the candidate is `tanh` of the two half sums plus the bias;
  the new potential is `P = p₀ + ((1 − z)·h + z·candidate)`; `g = max(P − θ, 0)`; the two stores are `[g > 0]·P` and
  `(P·[g ≤ 0])·δ`. The kernel makes each indicator by widening the comparison's bit to a word and converting the
  word as a signed integer; a bit widened to 32 bits is nonnegative, so that is the bit's value `0` or `1`.
  Each block is then read off its array at the point's offsets, so each tile is the tile of one function of the
  whole arrays (`Cert.GatedCell.fired`, `leaked` of `potential`), and the eight tiles cover the array.
-/
import proofs.«103545_j13340168421984_2_alg».proof.Proof.Gen.KernelIdeal.Frame
import proofs.«103545_j13340168421984_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Update

open Cert.KernelIdeal Cert.KernelIdeal.Gen Cert.GatedCell
open Idealize.ShloMosaic Idealize.ShloMosaic.TcCoe Idealize.ShloMosaic.ValueIdx Idealize.SL.Sem
open Idealize.ShloMosaic.Pipeline (Dat Cfg Window)

/-! ## One point's arithmetic -/

/-- The product's operand indices at an output entry and a contracted column, coordinate by coordinate: the left
    operand is read at (the entry's row, the column), the right at (the entry's column, the column). -/
theorem left_row (i : S256x1024.Idx) (c : dot_S256x2048_S1024x2048_S256x1024_1_1_0_0_n_n.contr.Idx) : (dot_S256x2048_S1024x2048_S256x1024_1_1_0_0_n_n.lhsIdx i c 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem left_col (i : S256x1024.Idx) (c : dot_S256x2048_S1024x2048_S256x1024_1_1_0_0_n_n.contr.Idx) : (dot_S256x2048_S1024x2048_S256x1024_1_1_0_0_n_n.lhsIdx i c 1).val = (c ⟨0, by decide⟩).val :=
  dot_S256x2048_S1024x2048_S256x1024_1_1_0_0_n_n.lhsIdx_val_of_single rfl i c
theorem right_row (i : S256x1024.Idx) (c : dot_S256x2048_S1024x2048_S256x1024_1_1_0_0_n_n.contr.Idx) : (dot_S256x2048_S1024x2048_S256x1024_1_1_0_0_n_n.rhsIdx i c 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem right_col (i : S256x1024.Idx) (c : dot_S256x2048_S1024x2048_S256x1024_1_1_0_0_n_n.contr.Idx) : (dot_S256x2048_S1024x2048_S256x1024_1_1_0_0_n_n.rhsIdx i c 1).val = (c ⟨0, by decide⟩).val :=
  dot_S256x2048_S1024x2048_S256x1024_1_1_0_0_n_n.rhsIdx_val_of_single rfl i c

/-- Entry `(p, q)` of the product of a 256 × 2048 block with a 1024 × 2048 block, contracted along the columns
    of both and accumulated into zeros: row `p` of the left against row `q` of the right. -/
theorem product_entry (l : FVec Ideal S256x2048 .bf16) (r : FVec Ideal S1024x2048 .bf16) (p : Fin 256) (q : Fin 1024) :
    matmul dot_S256x2048_S1024x2048_S256x1024_1_1_0_0_n_n none l r (constant (F := Ideal) S256x1024 .f32 0x00000000#32) (ix2 p q)
      = ∑ k : Fin 2048, l (ix2 p k) * r (ix2 q k) := by
  refine (Ideal.matmul_constant_zero_apply dot_S256x2048_S1024x2048_S256x1024_1_1_0_0_n_n none l r (ix2 p q)).trans ?_
  rw [← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun a => Fin.ext (by
    match a with
    | ⟨0, _⟩ => exact left_row _ _
    | ⟨1, _⟩ => exact (left_col _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun a => Fin.ext (by
    match a with
    | ⟨0, _⟩ => exact right_row _ _
    | ⟨1, _⟩ => exact (right_col _ _).trans hk)
  rw [el, er]

/-- The input half of a 1024 × 4096 weight block, at `(q, k)`: the block at `(q, k)`. -/
theorem input_half (w : Vec Ideal S1024x4096 .bf16) (q : Fin 1024) (k : Fin 2048) :
    View.ld w r1_1 (ix2 q k) = w (ix2 q (⟨k.val, by omega⟩ : Fin 4096)) :=
  congrArg w (funext fun a => Fin.ext (by
    match a with
    | ⟨0, _⟩ => show 0 + 1 * q.val = q.val; omega
    | ⟨1, _⟩ => show 0 + 1 * k.val = k.val; omega))

/-- The hidden half of a 1024 × 4096 weight block, at `(q, k)`: the block at `(q, 2048 + k)`. -/
theorem hidden_half (w : Vec Ideal S1024x4096 .bf16) (q : Fin 1024) (k : Fin 2048) :
    View.ld w r1_2 (ix2 q k) = w (ix2 q (⟨2048 + k.val, by omega⟩ : Fin 4096)) :=
  congrArg w (funext fun a => Fin.ext (by
    match a with
    | ⟨0, _⟩ => show 0 + 1 * q.val = q.val; omega
    | ⟨1, _⟩ => show 2048 + 1 * k.val = 2048 + k.val; omega))

/-- The two zero offsets, however they are spelt. -/
theorem zeros : (![0, 0] : Fin 2 → Nat) = fun _ => 0 := funext fun a => by fin_cases a <;> rfl

/-- A comparison's bit, widened to a word and converted as a signed integer, is the bit's value. -/
theorem bit_value (b : BitVec 1) : (((b.setWidth 32).toInt : ℝ) : EReal) = (((b.toNat : ℝ)) : EReal) := by
  rw [toInt_setWidth_bit]; norm_cast

/-- Equal arguments, equal values: three and six at a time. -/
theorem congr_three {α β : Type} (f : α → α → α → β) {a a' b b' c c' : α} (ha : a = a') (hb : b = b') (hc : c = c') :
    f a b c = f a' b' c' := by subst ha hb hc; rfl
theorem congr_six {α β : Type} (f : α → α → α → α → α → α → β) {a a' b b' c c' d d' e e' g g' : α}
    (ha : a = a') (hb : b = b') (hc : c = c') (hd : d = d') (he : e = e') (hg : g = g') :
    f a b c d e g = f a' b' c' d' e' g' := by subst ha hb hc hd he hg; rfl

/-- The new potential from six numbers: the previous potential `P`, the update gate `Z`, the state `H`, the
    candidate's two half sums `S₁`, `S₂` and its bias `B`. -/
def potentialOf (P Z H S₁ S₂ B : EReal) : EReal := P + ((one - Z) * H + Z * Ideal.tanh ((S₁ + S₂) + B))

/-- The first result from the new potential `P` and the threshold `T`. -/
def firedOf (P T : EReal) : EReal := (((Ideal.cmp .ogt (max (P - T) zero) zero).toNat : ℝ) : EReal) * P

/-- The second result from the new potential `P`, the threshold `T` and the decay rate `D`. -/
def leakedOf (P T D : EReal) : EReal := (P * (((Ideal.cmp .ole (max (P - T) zero) zero).toNat : ℝ) : EReal)) * D

/-- The new potential at entry `(p, q)` from the loaded pieces: the input rows `v0`, the reset product's rows `v2`,
    the two halves `v4`, `v6` of the candidate's weight rows, its bias entries `v11`, and the tiles of the update
    gate `v16`, the state `v18` and the previous potential `v24`. -/
def potOf (v0 v2 : Vec Ideal S256x2048 .bf16) (v4 v6 : Vec Ideal S1024x2048 .bf16) (v11 : Vec Ideal S1x1024 .f32)
    (v16 v18 v24 : Vec Ideal S256x1024 .f32) (p : Fin 256) (q : Fin 1024) : EReal :=
  v24 (ix2 p q) + ((one - v16 (ix2 p q)) * v18 (ix2 p q) + v16 (ix2 p q) * Ideal.tanh
    (((∑ k : Fin 2048, v0 (ix2 p k) * v4 (ix2 q k)) + (∑ k : Fin 2048, v2 (ix2 p k) * v6 (ix2 q k))) + v11 (ix2 (0 : Fin 1) q)))

/-- The potential's payload at an entry. -/
theorem potential_entry (v0 v2 : Vec Ideal S256x2048 .bf16) (v4 v6 : Vec Ideal S1024x2048 .bf16) (v11 : Vec Ideal S1x1024 .f32)
    (v16 v18 v24 : Vec Ideal S256x1024 .f32) (p : Fin 256) (q : Fin 1024) :
    k1_pay3 v0 v2 v4 v6 v11 v16 v18 v24 (ix2 p q) = potOf v0 v2 v4 v6 v11 v16 v18 v24 p q := by
  unfold k1_pay3 potOf
  simp only [shapeCast_self]
  show _ + ((_ - _) * _ + _ * Ideal.tanh ((_ + _) + _)) = _
  rw [product_entry, product_entry, broadcastTo_1b_ab_apply]
  rfl

/-- The excess over the threshold, cut off at zero, at an entry. -/
theorem excess_entry (v0 v2 : Vec Ideal S256x2048 .bf16) (v4 v6 : Vec Ideal S1024x2048 .bf16) (v11 : Vec Ideal S1x1024 .f32)
    (v16 v18 v24 : Vec Ideal S256x1024 .f32) (v26 : Vec Ideal S1x1024 .f32) (p : Fin 256) (q : Fin 1024) :
    k1_pay4 v0 v2 v4 v6 v11 v16 v18 v24 v26 (ix2 p q)
      = max (potOf v0 v2 v4 v6 v11 v16 v18 v24 p q - v26 (ix2 (0 : Fin 1) q)) zero := by
  unfold k1_pay4
  simp only [shapeCast_self]
  show max (k1_pay3 v0 v2 v4 v6 v11 v16 v18 v24 (ix2 p q) - _) _ = _
  rw [potential_entry, broadcastTo_1b_ab_apply]
  rfl

/-! ## The two stored tiles, from the point's blocks -/

/-- Entry `(p, q)` of the first stored tile: the indicator of a positive excess, times the new potential. -/
theorem fired_tile (x0 x1 : Vec Ideal S256x2048 .bf16) (x2 x3 x4 : Vec Ideal S256x1024 .f32) (x5 : Vec Ideal S1024x4096 .bf16)
    (x6 x7 x8 : Vec Ideal S1x1024 .f32) (p : Fin 256) (q : Fin 1024) :
    out1_9 x0 x1 x2 x3 x4 x5 x6 x7 x8 (ix2 p q)
      = (((Ideal.cmp .ogt (max (potOf x0 x1 (View.ld x5 r1_1) (View.ld x5 r1_2) x6 x3 x2 x4 p q - x7 (ix2 (0 : Fin 1) q)) zero) zero).toNat : ℝ) : EReal)
          * potOf x0 x1 (View.ld x5 r1_1) (View.ld x5 r1_2) x6 x3 x2 x4 p q := by
  unfold out1_9
  rw [View.canon_unit_zero zeros]
  simp only [View.ld_unit_zero (S := S256x2048) zeros, View.ld_unit_zero (S := S1x1024) zeros, View.ld_unit_zero (S := S256x1024) zeros]
  unfold k1_pay1 k1_pay5
  refine Eq.trans (b := ((((Ideal.cmp .ogt (k1_pay4 x0 x1 (View.ld x5 r1_1) (View.ld x5 r1_2) x6 x3 x2 x4 x7 (ix2 p q)) zero).setWidth 32).toInt : ℝ) : EReal)
    * k1_pay3 x0 x1 (View.ld x5 r1_1) (View.ld x5 r1_2) x6 x3 x2 x4 (ix2 p q)) rfl ?_
  rw [bit_value, excess_entry, potential_entry]

/-- Entry `(p, q)` of the second stored tile: the new potential times the indicator of no excess, times the unit's
    decay rate. -/
theorem leaked_tile (x0 x1 : Vec Ideal S256x2048 .bf16) (x2 x3 x4 : Vec Ideal S256x1024 .f32) (x5 : Vec Ideal S1024x4096 .bf16)
    (x6 x7 x8 : Vec Ideal S1x1024 .f32) (p : Fin 256) (q : Fin 1024) :
    out1_10 x0 x1 x2 x3 x4 x5 x6 x7 x8 (ix2 p q)
      = (potOf x0 x1 (View.ld x5 r1_1) (View.ld x5 r1_2) x6 x3 x2 x4 p q
          * (((Ideal.cmp .ole (max (potOf x0 x1 (View.ld x5 r1_1) (View.ld x5 r1_2) x6 x3 x2 x4 p q - x7 (ix2 (0 : Fin 1) q)) zero) zero).toNat : ℝ) : EReal))
          * x8 (ix2 (0 : Fin 1) q) := by
  unfold out1_10
  rw [View.canon_unit_zero zeros]
  simp only [View.ld_unit_zero (S := S256x2048) zeros, View.ld_unit_zero (S := S1x1024) zeros, View.ld_unit_zero (S := S256x1024) zeros]
  unfold k1_pay2
  simp only [shapeCast_self]
  refine Eq.trans (b := (k1_pay3 x0 x1 (View.ld x5 r1_1) (View.ld x5 r1_2) x6 x3 x2 x4 (ix2 p q)
    * ((((Ideal.cmp .ole (k1_pay4 x0 x1 (View.ld x5 r1_1) (View.ld x5 r1_2) x6 x3 x2 x4 x7 (ix2 p q)) zero).setWidth 32).toInt : ℝ) : EReal))
    * broadcastTo S256x1024 x8 broadcasts_S1x1024_S256x1024 (ix2 p q)) rfl ?_
  rw [bit_value, excess_entry, potential_entry, broadcastTo_1b_ab_apply]

/-! ## The blocks, read off their arrays -/

section Arrays

variable (V : (c : Dev nD) → (b : Ref sig .tc) → Buf (Elt Ideal) ((c : Thread nD τ).loc b))

/-- The printed index maps over the eight points: every input block moves with the output tile's row block or
    its unit block, or stays at zero; the two output windows move together; the row-block index stays below four
    and the unit-block index below two. -/
theorem index_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = win1_9.index t (1 : Fin 2)
    ∧ win1_3.index t (0 : Fin 2) = win1_9.index t (0 : Fin 2) ∧ win1_3.index t (1 : Fin 2) = win1_9.index t (1 : Fin 2)
    ∧ win1_4.index t (0 : Fin 2) = win1_9.index t (0 : Fin 2) ∧ win1_4.index t (1 : Fin 2) = win1_9.index t (1 : Fin 2)
    ∧ win1_5.index t (0 : Fin 2) = win1_9.index t (1 : Fin 2) ∧ win1_5.index t (1 : Fin 2) = 0
    ∧ win1_6.index t (0 : Fin 2) = 0 ∧ win1_6.index t (1 : Fin 2) = win1_9.index t (1 : Fin 2)
    ∧ win1_7.index t (0 : Fin 2) = 0 ∧ win1_7.index t (1 : Fin 2) = win1_9.index t (1 : Fin 2)
    ∧ win1_8.index t (0 : Fin 2) = 0 ∧ win1_8.index t (1 : Fin 2) = win1_9.index t (1 : Fin 2)
    ∧ win1_10.index t (0 : Fin 2) = win1_9.index t (0 : Fin 2) ∧ win1_10.index t (1 : Fin 2) = win1_9.index t (1 : Fin 2)
    ∧ win1_9.index t (0 : Fin 2) ≤ 3 ∧ win1_9.index t (1 : Fin 2) ≤ 1 :=
  (by decide +kernel : ∀ t : Fin grid1.N, _)

/-- Every tile of the 4 × 2 tiling is some point's. -/
theorem tiles_onto : ∀ (q0 : Fin 4) (q1 : Fin 2), ∃ t : Fin cfg1.N, win1_9.index t = ![q0.val, q1.val] :=
  (by decide +kernel : ∀ (q0 : Fin 4) (q1 : Fin 2), ∃ t : Fin grid1.N, win1_9.index t = ![q0.val, q1.val])

/-- Row `p` of the point's input rows is row `b` of the input array. -/
theorem input_rows (c : Dev nD) (t : Fin cfg1.N) (p : Fin 256) (k : Fin 2048) (b : Fin 1024)
    (hb : b.val = win1_9.index t (0 : Fin 2) * 256 + p.val) :
    iblk1 V c 0 t (ix2 p k) = (V c main_v3 : S1024x2048.Idx → EReal) (ix2 b k) := by
  obtain ⟨e00, e01, e10, e11, e20, e21, e30, e31, e40, e41, e50, e51, e60, e61, e70, e71, e80, e81, ea0, ea1, h0, h1⟩ := index_facts t
  show (V c main_v3 : S1024x2048.Idx → EReal) (((cfg1.win 0).blk t).view.emb (ix2 p k)) = _
  refine congrArg (V c main_v3 : S1024x2048.Idx → EReal) (funext fun a => Fin.ext ?_)
  match a with
  | ⟨0, _⟩ => show win1_0.index t (0 : Fin 2) * 256 + 1 * p.val = b.val; omega
  | ⟨1, _⟩ => show win1_0.index t (1 : Fin 2) * 2048 + 1 * k.val = k.val; omega

/-- Row `p` of the point's rows of the reset gate's product with the state is row `b` of that array. -/
theorem reset_rows (c : Dev nD) (t : Fin cfg1.N) (p : Fin 256) (k : Fin 2048) (b : Fin 1024)
    (hb : b.val = win1_9.index t (0 : Fin 2) * 256 + p.val) :
    iblk1 V c 1 t (ix2 p k) = (V c main_v10_1 : S1024x2048.Idx → EReal) (ix2 b k) := by
  obtain ⟨e00, e01, e10, e11, e20, e21, e30, e31, e40, e41, e50, e51, e60, e61, e70, e71, e80, e81, ea0, ea1, h0, h1⟩ := index_facts t
  show (V c main_v10_1 : S1024x2048.Idx → EReal) (((cfg1.win 1).blk t).view.emb (ix2 p k)) = _
  refine congrArg (V c main_v10_1 : S1024x2048.Idx → EReal) (funext fun a => Fin.ext ?_)
  match a with
  | ⟨0, _⟩ => show win1_1.index t (0 : Fin 2) * 256 + 1 * p.val = b.val; omega
  | ⟨1, _⟩ => show win1_1.index t (1 : Fin 2) * 2048 + 1 * k.val = k.val; omega

/-- Entry `(p, q)` of the point's state tile is entry `(b, j)` of the state array. -/
theorem state_tile (c : Dev nD) (t : Fin cfg1.N) (p : Fin 256) (q : Fin 1024) (b : Fin 1024) (j : Fin 2048)
    (hb : b.val = win1_9.index t (0 : Fin 2) * 256 + p.val) (hj : j.val = win1_9.index t (1 : Fin 2) * 1024 + q.val) :
    iblk1 V c 2 t (ix2 p q) = (V c main_arg1 : S1024x2048.Idx → EReal) (ix2 b j) := by
  obtain ⟨e00, e01, e10, e11, e20, e21, e30, e31, e40, e41, e50, e51, e60, e61, e70, e71, e80, e81, ea0, ea1, h0, h1⟩ := index_facts t
  show (V c main_arg1 : S1024x2048.Idx → EReal) (((cfg1.win 2).blk t).view.emb (ix2 p q)) = _
  refine congrArg (V c main_arg1 : S1024x2048.Idx → EReal) (funext fun a => Fin.ext ?_)
  match a with
  | ⟨0, _⟩ => show win1_2.index t (0 : Fin 2) * 256 + 1 * p.val = b.val; omega
  | ⟨1, _⟩ => show win1_2.index t (1 : Fin 2) * 1024 + 1 * q.val = j.val; omega

/-- Entry `(p, q)` of the point's update-gate tile is entry `(b, j)` of the update gate's array. -/
theorem gate_tile (c : Dev nD) (t : Fin cfg1.N) (p : Fin 256) (q : Fin 1024) (b : Fin 1024) (j : Fin 2048)
    (hb : b.val = win1_9.index t (0 : Fin 2) * 256 + p.val) (hj : j.val = win1_9.index t (1 : Fin 2) * 1024 + q.val) :
    iblk1 V c 3 t (ix2 p q) = (V c main_v10_0 : S1024x2048.Idx → EReal) (ix2 b j) := by
  obtain ⟨e00, e01, e10, e11, e20, e21, e30, e31, e40, e41, e50, e51, e60, e61, e70, e71, e80, e81, ea0, ea1, h0, h1⟩ := index_facts t
  show (V c main_v10_0 : S1024x2048.Idx → EReal) (((cfg1.win 3).blk t).view.emb (ix2 p q)) = _
  refine congrArg (V c main_v10_0 : S1024x2048.Idx → EReal) (funext fun a => Fin.ext ?_)
  match a with
  | ⟨0, _⟩ => show win1_3.index t (0 : Fin 2) * 256 + 1 * p.val = b.val; omega
  | ⟨1, _⟩ => show win1_3.index t (1 : Fin 2) * 1024 + 1 * q.val = j.val; omega

/-- Entry `(p, q)` of the point's previous-potential tile is entry `(b, j)` of the previous potential. -/
theorem previous_tile (c : Dev nD) (t : Fin cfg1.N) (p : Fin 256) (q : Fin 1024) (b : Fin 1024) (j : Fin 2048)
    (hb : b.val = win1_9.index t (0 : Fin 2) * 256 + p.val) (hj : j.val = win1_9.index t (1 : Fin 2) * 1024 + q.val) :
    iblk1 V c 4 t (ix2 p q) = (V c main_arg2 : S1024x2048.Idx → EReal) (ix2 b j) := by
  obtain ⟨e00, e01, e10, e11, e20, e21, e30, e31, e40, e41, e50, e51, e60, e61, e70, e71, e80, e81, ea0, ea1, h0, h1⟩ := index_facts t
  show (V c main_arg2 : S1024x2048.Idx → EReal) (((cfg1.win 4).blk t).view.emb (ix2 p q)) = _
  refine congrArg (V c main_arg2 : S1024x2048.Idx → EReal) (funext fun a => Fin.ext ?_)
  match a with
  | ⟨0, _⟩ => show win1_4.index t (0 : Fin 2) * 256 + 1 * p.val = b.val; omega
  | ⟨1, _⟩ => show win1_4.index t (1 : Fin 2) * 1024 + 1 * q.val = j.val; omega

/-- Row `q` of the point's candidate weight rows is row `j` of the candidate's weights. -/
theorem candidate_weights (c : Dev nD) (t : Fin cfg1.N) (q : Fin 1024) (k : Fin 4096) (j : Fin 2048)
    (hj : j.val = win1_9.index t (1 : Fin 2) * 1024 + q.val) :
    iblk1 V c 5 t (ix2 q k) = (V c main_v2 : S2048x4096.Idx → EReal) (ix2 j k) := by
  obtain ⟨e00, e01, e10, e11, e20, e21, e30, e31, e40, e41, e50, e51, e60, e61, e70, e71, e80, e81, ea0, ea1, h0, h1⟩ := index_facts t
  show (V c main_v2 : S2048x4096.Idx → EReal) (((cfg1.win 5).blk t).view.emb (ix2 q k)) = _
  refine congrArg (V c main_v2 : S2048x4096.Idx → EReal) (funext fun a => Fin.ext ?_)
  match a with
  | ⟨0, _⟩ => show win1_5.index t (0 : Fin 2) * 1024 + 1 * q.val = j.val; omega
  | ⟨1, _⟩ => show win1_5.index t (1 : Fin 2) * 4096 + 1 * k.val = k.val; omega

/-- Entry `q` of the point's candidate bias entries is entry `j` of the candidate's bias row. -/
theorem candidate_bias (c : Dev nD) (t : Fin cfg1.N) (q : Fin 1024) (j : Fin 2048)
    (hj : j.val = win1_9.index t (1 : Fin 2) * 1024 + q.val) :
    iblk1 V c 6 t (ix2 (0 : Fin 1) q) = (V c main_v7 : S1x2048.Idx → EReal) (ix2 (0 : Fin 1) j) := by
  obtain ⟨e00, e01, e10, e11, e20, e21, e30, e31, e40, e41, e50, e51, e60, e61, e70, e71, e80, e81, ea0, ea1, h0, h1⟩ := index_facts t
  show (V c main_v7 : S1x2048.Idx → EReal) (((cfg1.win 6).blk t).view.emb (ix2 (0 : Fin 1) q)) = _
  refine congrArg (V c main_v7 : S1x2048.Idx → EReal) (funext fun a => Fin.ext ?_)
  match a with
  | ⟨0, _⟩ => show win1_6.index t (0 : Fin 2) * 1 + 1 * 0 = 0; omega
  | ⟨1, _⟩ => show win1_6.index t (1 : Fin 2) * 1024 + 1 * q.val = j.val; omega

/-- Entry `q` of the point's thresholds is entry `j` of the threshold row. -/
theorem threshold_entry (c : Dev nD) (t : Fin cfg1.N) (q : Fin 1024) (j : Fin 2048)
    (hj : j.val = win1_9.index t (1 : Fin 2) * 1024 + q.val) :
    iblk1 V c 7 t (ix2 (0 : Fin 1) q) = (V c main_v8 : S1x2048.Idx → EReal) (ix2 (0 : Fin 1) j) := by
  obtain ⟨e00, e01, e10, e11, e20, e21, e30, e31, e40, e41, e50, e51, e60, e61, e70, e71, e80, e81, ea0, ea1, h0, h1⟩ := index_facts t
  show (V c main_v8 : S1x2048.Idx → EReal) (((cfg1.win 7).blk t).view.emb (ix2 (0 : Fin 1) q)) = _
  refine congrArg (V c main_v8 : S1x2048.Idx → EReal) (funext fun a => Fin.ext ?_)
  match a with
  | ⟨0, _⟩ => show win1_7.index t (0 : Fin 2) * 1 + 1 * 0 = 0; omega
  | ⟨1, _⟩ => show win1_7.index t (1 : Fin 2) * 1024 + 1 * q.val = j.val; omega

/-- Entry `q` of the point's decay rates is entry `j` of the decay row. -/
theorem decay_entry (c : Dev nD) (t : Fin cfg1.N) (q : Fin 1024) (j : Fin 2048)
    (hj : j.val = win1_9.index t (1 : Fin 2) * 1024 + q.val) :
    iblk1 V c 8 t (ix2 (0 : Fin 1) q) = (V c main_v9 : S1x2048.Idx → EReal) (ix2 (0 : Fin 1) j) := by
  obtain ⟨e00, e01, e10, e11, e20, e21, e30, e31, e40, e41, e50, e51, e60, e61, e70, e71, e80, e81, ea0, ea1, h0, h1⟩ := index_facts t
  show (V c main_v9 : S1x2048.Idx → EReal) (((cfg1.win 8).blk t).view.emb (ix2 (0 : Fin 1) q)) = _
  refine congrArg (V c main_v9 : S1x2048.Idx → EReal) (funext fun a => Fin.ext ?_)
  match a with
  | ⟨0, _⟩ => show win1_8.index t (0 : Fin 2) * 1 + 1 * 0 = 0; omega
  | ⟨1, _⟩ => show win1_8.index t (1 : Fin 2) * 1024 + 1 * q.val = j.val; omega

/-- Entry `(p, q)` of the first result's tile at point `t` sits at `(b, j)` of the array. -/
theorem fired_coords (t : Fin cfg1.N) (p : Fin 256) (q : Fin 1024) (b : Fin 1024) (j : Fin 2048)
    (hb : b.val = win1_9.index t (0 : Fin 2) * 256 + p.val) (hj : j.val = win1_9.index t (1 : Fin 2) * 1024 + q.val) :
    (((cfg1.win 9).blk t).view.emb (ix2 p q) : S1024x2048.Idx) = ix2 b j := by
  funext a; apply Fin.ext
  match a with
  | ⟨0, _⟩ => show win1_9.index t (0 : Fin 2) * 256 + 1 * p.val = b.val; omega
  | ⟨1, _⟩ => show win1_9.index t (1 : Fin 2) * 1024 + 1 * q.val = j.val; omega

/-- An index of the array is in point `t`'s tile iff each coordinate is in the tile's range on its axis. -/
theorem fired_mem (t : Fin cfg1.N) (i : S1024x2048.Idx) :
    i ∈ ((cfg1.win 9).blk t).view.set ↔ ∀ a : Fin 2, win1_9.index t a * S256x1024.size a ≤ (i a).val ∧ (i a).val < win1_9.index t a * S256x1024.size a + S256x1024.size a := by
  show i ∈ ((View.whole main_v11_0).slice (win1_9.rect t)).set ↔ _
  rw [View.set_slice_whole, Rect.mem_set_unit]
  exact Iff.rfl

/-- Every index of the array is in some point's tile: the tile of its row block and its unit block. -/
theorem fired_covered (i : S1024x2048.Idx) : ∃ t : Fin cfg1.N, (cfg1.win 9).flush t = true ∧ i ∈ ((cfg1.win 9).blk t).view.set := by
  have hi0 : (i 0).val < 1024 := (i 0).isLt
  have hi1 : (i 1).val < 2048 := (i 1).isLt
  obtain ⟨t, ht⟩ := tiles_onto ⟨(i 0).val / 256, by omega⟩ ⟨(i 1).val / 1024, by omega⟩
  obtain ⟨e00, e01, e10, e11, e20, e21, e30, e31, e40, e41, e50, e51, e60, e61, e70, e71, e80, e81, ea0, ea1, h0, h1⟩ := index_facts t
  have q0 : win1_9.index t (0 : Fin 2) = (i 0).val / 256 := congrFun ht 0
  have q1 : win1_9.index t (1 : Fin 2) = (i 1).val / 1024 := congrFun ht 1
  refine ⟨t, flush1_9 t, ?_⟩
  rw [fired_mem]
  intro a
  match a with
  | ⟨0, _⟩ => show win1_9.index t (0 : Fin 2) * 256 ≤ (i 0).val ∧ (i 0).val < win1_9.index t (0 : Fin 2) * 256 + 256; omega
  | ⟨1, _⟩ => show win1_9.index t (1 : Fin 2) * 1024 ≤ (i 1).val ∧ (i 1).val < win1_9.index t (1 : Fin 2) * 1024 + 1024; omega

/-- Entry `(p, q)` of the second result's tile at point `t` sits at `(b, j)` of the array. -/
theorem leaked_coords (t : Fin cfg1.N) (p : Fin 256) (q : Fin 1024) (b : Fin 1024) (j : Fin 2048)
    (hb : b.val = win1_10.index t (0 : Fin 2) * 256 + p.val) (hj : j.val = win1_10.index t (1 : Fin 2) * 1024 + q.val) :
    (((cfg1.win 10).blk t).view.emb (ix2 p q) : S1024x2048.Idx) = ix2 b j := by
  funext a; apply Fin.ext
  match a with
  | ⟨0, _⟩ => show win1_10.index t (0 : Fin 2) * 256 + 1 * p.val = b.val; omega
  | ⟨1, _⟩ => show win1_10.index t (1 : Fin 2) * 1024 + 1 * q.val = j.val; omega

/-- An index of the array is in point `t`'s tile iff each coordinate is in the tile's range on its axis. -/
theorem leaked_mem (t : Fin cfg1.N) (i : S1024x2048.Idx) :
    i ∈ ((cfg1.win 10).blk t).view.set ↔ ∀ a : Fin 2, win1_10.index t a * S256x1024.size a ≤ (i a).val ∧ (i a).val < win1_10.index t a * S256x1024.size a + S256x1024.size a := by
  show i ∈ ((View.whole main_v11_1).slice (win1_10.rect t)).set ↔ _
  rw [View.set_slice_whole, Rect.mem_set_unit]
  exact Iff.rfl

/-- Every index of the array is in some point's tile: the tile of its row block and its unit block. -/
theorem leaked_covered (i : S1024x2048.Idx) : ∃ t : Fin cfg1.N, (cfg1.win 10).flush t = true ∧ i ∈ ((cfg1.win 10).blk t).view.set := by
  have hi0 : (i 0).val < 1024 := (i 0).isLt
  have hi1 : (i 1).val < 2048 := (i 1).isLt
  obtain ⟨t, ht⟩ := tiles_onto ⟨(i 0).val / 256, by omega⟩ ⟨(i 1).val / 1024, by omega⟩
  obtain ⟨e00, e01, e10, e11, e20, e21, e30, e31, e40, e41, e50, e51, e60, e61, e70, e71, e80, e81, ea0, ea1, h0, h1⟩ := index_facts t
  have q0 : win1_9.index t (0 : Fin 2) = (i 0).val / 256 := congrFun ht 0
  have q1 : win1_9.index t (1 : Fin 2) = (i 1).val / 1024 := congrFun ht 1
  refine ⟨t, flush1_10 t, ?_⟩
  rw [leaked_mem]
  intro a
  match a with
  | ⟨0, _⟩ => show win1_10.index t (0 : Fin 2) * 256 ≤ (i 0).val ∧ (i 0).val < win1_10.index t (0 : Fin 2) * 256 + 256; omega
  | ⟨1, _⟩ => show win1_10.index t (1 : Fin 2) * 1024 ≤ (i 1).val ∧ (i 1).val < win1_10.index t (1 : Fin 2) * 1024 + 1024; omega

/-- The new potential from the point's blocks at `(p, q)` is the new potential of the whole arrays at `(b, j)`:
    each of the six numbers it is made of is read off its array. -/
theorem potential_read (c : Dev nD) (t : Fin cfg1.N) (p : Fin 256) (q : Fin 1024) (b : Fin 1024) (j : Fin 2048)
    (hb : b.val = win1_9.index t (0 : Fin 2) * 256 + p.val) (hj : j.val = win1_9.index t (1 : Fin 2) * 1024 + q.val) :
    potOf (iblk1 V c 0 t) (iblk1 V c 1 t) (View.ld (iblk1 V c 5 t) r1_1) (View.ld (iblk1 V c 5 t) r1_2) (iblk1 V c 6 t) (iblk1 V c 3 t) (iblk1 V c 2 t) (iblk1 V c 4 t) p q = potential (V c main_v3) (V c main_v10_1) (V c main_arg1) (V c main_v10_0) (V c main_arg2) (V c main_v2) (V c main_v7) (ix2 b j) :=
  congr_six potentialOf
    (previous_tile V c t p q b j hb hj) (gate_tile V c t p q b j hb hj) (state_tile V c t p q b j hb hj)
    (Finset.sum_congr rfl fun k _ => congrArg₂ (fun a b : EReal => a * b) (input_rows V c t p k b hb)
      ((input_half (iblk1 V c 5 t) q k).trans (candidate_weights V c t q _ j hj)))
    (Finset.sum_congr rfl fun k _ => congrArg₂ (fun a b : EReal => a * b) (reset_rows V c t p k b hb)
      ((hidden_half (iblk1 V c 5 t) q k).trans (candidate_weights V c t q _ j hj)))
    (candidate_bias V c t q j hj)

/-- What point `t` writes back to the first result is tile `t` of the first result of the whole arrays. -/
theorem fired_flushed (c : Dev nD) (t : Fin cfg1.N) :
    (dat1 V c).flushed 9 t = ((cfg1.win 9).blk t).view.read (Elt Ideal)
      (fired (potential (V c main_v3) (V c main_v10_1) (V c main_arg1) (V c main_v10_0) (V c main_arg2) (V c main_v2) (V c main_v7)) (V c main_v8)) := by
  show (cfg1.win 9).cut (grid1.coords t) ((dat1 V c).after 9 t) = _
  rw [after1_9]
  funext y
  obtain ⟨p, q, rfl⟩ : ∃ (p : Fin 256) (q : Fin 1024), y = ix2 p q := ⟨y 0, y 1, eq_ix2 y⟩
  obtain ⟨e00, e01, e10, e11, e20, e21, e30, e31, e40, e41, e50, e51, e60, e61, e70, e71, e80, e81, ea0, ea1, h0, h1⟩ := index_facts t
  have hp := p.isLt; have hq := q.isLt
  obtain ⟨b, hb⟩ : ∃ b : Fin 1024, b.val = win1_9.index t (0 : Fin 2) * 256 + p.val := ⟨⟨_, by omega⟩, rfl⟩
  obtain ⟨j, hj⟩ : ∃ j : Fin 2048, j.val = win1_9.index t (1 : Fin 2) * 1024 + q.val := ⟨⟨_, by omega⟩, rfl⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
    = fired (potential (V c main_v3) (V c main_v10_1) (V c main_arg1) (V c main_v10_0) (V c main_arg2) (V c main_v2) (V c main_v7)) (V c main_v8) (((cfg1.win 9).blk t).view.emb (ix2 p q))
  rw [fired_coords t p q b j hb hj]
  refine (fired_tile (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  exact congrArg₂ firedOf (potential_read V c t p q b j hb hj) (threshold_entry V c t q j hj)

/-- What point `t` writes back to the second result is tile `t` of the second result of the whole arrays. -/
theorem leaked_flushed (c : Dev nD) (t : Fin cfg1.N) :
    (dat1 V c).flushed 10 t = ((cfg1.win 10).blk t).view.read (Elt Ideal)
      (leaked (potential (V c main_v3) (V c main_v10_1) (V c main_arg1) (V c main_v10_0) (V c main_arg2) (V c main_v2) (V c main_v7)) (V c main_v8) (V c main_v9)) := by
  show (cfg1.win 10).cut (grid1.coords t) ((dat1 V c).after 10 t) = _
  rw [after1_10]
  funext y
  obtain ⟨p, q, rfl⟩ : ∃ (p : Fin 256) (q : Fin 1024), y = ix2 p q := ⟨y 0, y 1, eq_ix2 y⟩
  obtain ⟨e00, e01, e10, e11, e20, e21, e30, e31, e40, e41, e50, e51, e60, e61, e70, e71, e80, e81, ea0, ea1, h0, h1⟩ := index_facts t
  have hp := p.isLt; have hq := q.isLt
  obtain ⟨b, hb⟩ : ∃ b : Fin 1024, b.val = win1_9.index t (0 : Fin 2) * 256 + p.val := ⟨⟨_, by omega⟩, rfl⟩
  obtain ⟨j, hj⟩ : ∃ j : Fin 2048, j.val = win1_9.index t (1 : Fin 2) * 1024 + q.val := ⟨⟨_, by omega⟩, rfl⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
    = leaked (potential (V c main_v3) (V c main_v10_1) (V c main_arg1) (V c main_v10_0) (V c main_arg2) (V c main_v2) (V c main_v7)) (V c main_v8) (V c main_v9) (((cfg1.win 10).blk t).view.emb (ix2 p q))
  rw [leaked_coords t p q b j (by omega) (by omega)]
  refine (leaked_tile (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  exact congr_three leakedOf (potential_read V c t p q b j hb hj) (threshold_entry V c t q j hj) (decay_entry V c t q j hj)

/-- When the region is left the first result's array holds `fired` of the arrays the region found. -/
theorem fired_array (c : Dev nD) :
    (dat1 V c).arrAt 9 cfg1.N = fired (potential (V c main_v3) (V c main_v10_1) (V c main_arg1) (V c main_v10_0) (V c main_arg2) (V c main_v2) (V c main_v7)) (V c main_v8) :=
  (dat1 V c).arrAt_eq_of_cover 9 _ (fun t _ => fired_flushed V c t) fired_covered

/-- When the region is left the second result's array holds `leaked` of the arrays the region found. -/
theorem leaked_array (c : Dev nD) :
    (dat1 V c).arrAt 10 cfg1.N = leaked (potential (V c main_v3) (V c main_v10_1) (V c main_arg1) (V c main_v10_0) (V c main_arg2) (V c main_v2) (V c main_v7)) (V c main_v8) (V c main_v9) :=
  (dat1 V c).arrAt_eq_of_cover 10 _ (fun t _ => leaked_flushed V c t) leaked_covered

end Arrays

end Cert.KernelIdeal.Update

end
-- ==== Proof.Fold.lean ====
/-
  What the two result buffers hold when @main returns, as functions of the eleven argument arrays.

  The contents are followed through @main's three segments. After the host stretch, each of the five
  reduced-precision copies is the array it copies (a change of float format is the identity on extended reals) and
  each of the five reshaped vectors is the vector laid out as one row; the arguments themselves are untouched. The
  gate region leaves its inputs as it found them and its two outputs at the update gate and at the reset gate's
  product with the state, of those inputs. The update region then leaves its two outputs at the two results of the
  new potential, of ITS inputs — among them the gate region's two outputs. Substituting inward, the two result
  buffers hold the cell's two results of the arguments.
-/
import proofs.«103545_j13340168421984_2_alg».proof.Proof.Gen.KernelIdeal.Frame
import proofs.«103545_j13340168421984_2_alg».proof.Proof.Spec
import proofs.«103545_j13340168421984_2_alg».proof.Proof.Gates
import proofs.«103545_j13340168421984_2_alg».proof.Proof.Update
import Idealize.ShloMosaic.Lib.StableHlo.Run
import Idealize.ShloMosaic.Lib.ValueIdx
import Idealize.ShloMosaic.Lib.ValueLayout

set_option maxRecDepth 16384

noncomputable section

namespace Cert.KernelIdeal.Contents

open Cert.KernelIdeal Cert.KernelIdeal.Gen Cert.GatedCell
open Idealize.ShloMosaic Idealize.ShloMosaic.TcCoe Idealize.ShloMosaic.ValueIdx Idealize.ShloMosaic.StableHlo Idealize.SL.Sem
open Idealize.ShloMosaic.Pipeline (Dat Cfg Window)

/-! ## Equal arrays, equal cells -/

theorem gateZ_congr {X X' H H' : Rows.Idx → EReal} {W W' : Wts.Idx → EReal} {B B' : OneRow.Idx → EReal}
    (hX : X = X') (hH : H = H') (hW : W = W') (hB : B = B') : gateZ X H W B = gateZ X' H' W' B' := by
  subst hX hH hW hB; rfl
theorem resetState_congr {X X' H H' Hf Hf' : Rows.Idx → EReal} {W W' : Wts.Idx → EReal} {B B' : OneRow.Idx → EReal}
    (hX : X = X') (hH : H = H') (hHf : Hf = Hf') (hW : W = W') (hB : B = B') :
    resetState X H Hf W B = resetState X' H' Hf' W' B' := by
  subst hX hH hHf hW hB; rfl
theorem potential_congr {X X' RH RH' Hf Hf' Z Z' P P' : Rows.Idx → EReal} {W W' : Wts.Idx → EReal} {B B' : OneRow.Idx → EReal}
    (hX : X = X') (hRH : RH = RH') (hHf : Hf = Hf') (hZ : Z = Z') (hP : P = P') (hW : W = W') (hB : B = B') :
    potential X RH Hf Z P W B = potential X' RH' Hf' Z' P' W' B' := by
  subst hX hRH hHf hZ hP hW hB; rfl
theorem fired_congr {Pn Pn' : Rows.Idx → EReal} {T T' : OneRow.Idx → EReal} (hP : Pn = Pn') (hT : T = T') :
    fired Pn T = fired Pn' T' := by subst hP hT; rfl
theorem leaked_congr {Pn Pn' : Rows.Idx → EReal} {T T' D D' : OneRow.Idx → EReal} (hP : Pn = Pn') (hT : T = T') (hD : D = D') :
    leaked Pn T D = leaked Pn' T' D' := by subst hP hT hD; rfl

variable (m : (ℓ : Loc nD τ sig) → Buf (Elt Ideal) ℓ) (ρ : Dev nD → PrngReg)

/-! ## After the host stretch -/

/-- The input's reduced-precision copy is the input. -/
theorem host_input (c : Dev nD) : (V1 m ρ c main_v3 : S1024x2048.Idx → EReal) = (m ((c : Thread nD τ).loc main_arg0)) := by
  show StableHlo.after hostOps0 (W0 m ρ c) (Proc.devRef .tc main_v3) = _
  after_results
  rfl

/-- The state's reduced-precision copy is the state. -/
theorem host_state (c : Dev nD) : (V1 m ρ c main_v4 : S1024x2048.Idx → EReal) = (m ((c : Thread nD τ).loc main_arg1)) := by
  show StableHlo.after hostOps0 (W0 m ρ c) (Proc.devRef .tc main_v4) = _
  after_results
  rfl

/-- The reset gate's weights, copied, are the weights. -/
theorem host_reset_weights (c : Dev nD) : (V1 m ρ c main_v0 : S2048x4096.Idx → EReal) = (m ((c : Thread nD τ).loc main_arg3)) := by
  show StableHlo.after hostOps0 (W0 m ρ c) (Proc.devRef .tc main_v0) = _
  after_results
  rfl

/-- The update gate's weights, copied, are the weights. -/
theorem host_update_weights (c : Dev nD) : (V1 m ρ c main_v1 : S2048x4096.Idx → EReal) = (m ((c : Thread nD τ).loc main_arg5)) := by
  show StableHlo.after hostOps0 (W0 m ρ c) (Proc.devRef .tc main_v1) = _
  after_results
  rfl

/-- The candidate's weights, copied, are the weights. -/
theorem host_candidate_weights (c : Dev nD) : (V1 m ρ c main_v2 : S2048x4096.Idx → EReal) = (m ((c : Thread nD τ).loc main_arg7)) := by
  show StableHlo.after hostOps0 (W0 m ρ c) (Proc.devRef .tc main_v2) = _
  after_results
  rfl

/-- The state itself is untouched by the host stretch. -/
theorem host_state_kept (c : Dev nD) : (V1 m ρ c main_arg1 : S1024x2048.Idx → EReal) = (m ((c : Thread nD τ).loc main_arg1)) := by
  show StableHlo.after hostOps0 (W0 m ρ c) (Proc.devRef .tc main_arg1) = _
  after_results

/-- The previous potential is untouched by the host stretch. -/
theorem host_previous_kept (c : Dev nD) : (V1 m ρ c main_arg2 : S1024x2048.Idx → EReal) = (m ((c : Thread nD τ).loc main_arg2)) := by
  show StableHlo.after hostOps0 (W0 m ρ c) (Proc.devRef .tc main_arg2) = _
  after_results

/-- The reset gate's bias, reshaped, is the bias as one row. -/
theorem host_reset_bias (c : Dev nD) : (V1 m ρ c main_v5 : S1x2048.Idx → EReal) = asRow (m ((c : Thread nD τ).loc main_arg4)) := by
  show StableHlo.after hostOps0 (W0 m ρ c) (Proc.devRef .tc main_v5) = _
  after_results
  funext i
  obtain ⟨u, j, rfl⟩ : ∃ (u : Fin 1) (j : Fin 2048), i = ix2 u j := ⟨i 0, i 1, eq_ix2 i⟩
  exact shapeCast_a_1a_apply _ shapeCasts_S2048_S1x2048 u j

/-- The update gate's bias, reshaped, is the bias as one row. -/
theorem host_update_bias (c : Dev nD) : (V1 m ρ c main_v6 : S1x2048.Idx → EReal) = asRow (m ((c : Thread nD τ).loc main_arg6)) := by
  show StableHlo.after hostOps0 (W0 m ρ c) (Proc.devRef .tc main_v6) = _
  after_results
  funext i
  obtain ⟨u, j, rfl⟩ : ∃ (u : Fin 1) (j : Fin 2048), i = ix2 u j := ⟨i 0, i 1, eq_ix2 i⟩
  exact shapeCast_a_1a_apply _ shapeCasts_S2048_S1x2048 u j

/-- The candidate's bias, reshaped, is the bias as one row. -/
theorem host_candidate_bias (c : Dev nD) : (V1 m ρ c main_v7 : S1x2048.Idx → EReal) = asRow (m ((c : Thread nD τ).loc main_arg8)) := by
  show StableHlo.after hostOps0 (W0 m ρ c) (Proc.devRef .tc main_v7) = _
  after_results
  funext i
  obtain ⟨u, j, rfl⟩ : ∃ (u : Fin 1) (j : Fin 2048), i = ix2 u j := ⟨i 0, i 1, eq_ix2 i⟩
  exact shapeCast_a_1a_apply _ shapeCasts_S2048_S1x2048 u j

/-- The thresholds, reshaped, are the thresholds as one row. -/
theorem host_thresholds (c : Dev nD) : (V1 m ρ c main_v8 : S1x2048.Idx → EReal) = asRow (m ((c : Thread nD τ).loc main_arg9)) := by
  show StableHlo.after hostOps0 (W0 m ρ c) (Proc.devRef .tc main_v8) = _
  after_results
  funext i
  obtain ⟨u, j, rfl⟩ : ∃ (u : Fin 1) (j : Fin 2048), i = ix2 u j := ⟨i 0, i 1, eq_ix2 i⟩
  exact shapeCast_a_1a_apply _ shapeCasts_S2048_S1x2048 u j

/-- The decay rates, reshaped, are the decay rates as one row. -/
theorem host_decay (c : Dev nD) : (V1 m ρ c main_v9 : S1x2048.Idx → EReal) = asRow (m ((c : Thread nD τ).loc main_arg10)) := by
  show StableHlo.after hostOps0 (W0 m ρ c) (Proc.devRef .tc main_v9) = _
  after_results
  funext i
  obtain ⟨u, j, rfl⟩ : ∃ (u : Fin 1) (j : Fin 2048), i = ix2 u j := ⟨i 0, i 1, eq_ix2 i⟩
  exact shapeCast_a_1a_apply _ shapeCasts_S2048_S1x2048 u j

/-! ## When the gate region is left -/

/-- The gate region leaves the input's copy as it found it. -/
theorem mid_input (c : Dev nD) : (V2 m ρ c main_v3 : S1024x2048.Idx → EReal) = (m ((c : Thread nD τ).loc main_arg0)) :=
  ((W2_arr m ρ c 0).trans (((dat0 (V1 m ρ) c).arrAt_in 0 rfl _).trans (A_eq0 (V1 m ρ) c 0))).trans (host_input m ρ c)
/-- The gate region leaves the state as it found it. -/
theorem mid_state (c : Dev nD) : (V2 m ρ c main_arg1 : S1024x2048.Idx → EReal) = (m ((c : Thread nD τ).loc main_arg1)) :=
  ((W2_arr m ρ c 2).trans (((dat0 (V1 m ρ) c).arrAt_in 2 rfl _).trans (A_eq0 (V1 m ρ) c 2))).trans (host_state_kept m ρ c)
/-- The gate region does not touch the previous potential. -/
theorem mid_previous (c : Dev nD) : (V2 m ρ c main_arg2 : S1024x2048.Idx → EReal) = (m ((c : Thread nD τ).loc main_arg2)) :=
  (W2_of_ne m ρ c main_arg2 (by decide)).trans (host_previous_kept m ρ c)
/-- The gate region does not touch the candidate's weights. -/
theorem mid_candidate_weights (c : Dev nD) : (V2 m ρ c main_v2 : S2048x4096.Idx → EReal) = (m ((c : Thread nD τ).loc main_arg7)) :=
  (W2_of_ne m ρ c main_v2 (by decide)).trans (host_candidate_weights m ρ c)
/-- The gate region does not touch the candidate's bias row. -/
theorem mid_candidate_bias (c : Dev nD) : (V2 m ρ c main_v7 : S1x2048.Idx → EReal) = asRow (m ((c : Thread nD τ).loc main_arg8)) :=
  (W2_of_ne m ρ c main_v7 (by decide)).trans (host_candidate_bias m ρ c)
/-- The gate region does not touch the threshold row. -/
theorem mid_thresholds (c : Dev nD) : (V2 m ρ c main_v8 : S1x2048.Idx → EReal) = asRow (m ((c : Thread nD τ).loc main_arg9)) :=
  (W2_of_ne m ρ c main_v8 (by decide)).trans (host_thresholds m ρ c)
/-- The gate region does not touch the decay row. -/
theorem mid_decay (c : Dev nD) : (V2 m ρ c main_v9 : S1x2048.Idx → EReal) = asRow (m ((c : Thread nD τ).loc main_arg10)) :=
  (W2_of_ne m ρ c main_v9 (by decide)).trans (host_decay m ρ c)

/-- The gate region's first output is the update gate of the arguments. -/
theorem mid_update_gate (c : Dev nD) :
    (V2 m ρ c main_v10_0 : S1024x2048.Idx → EReal) = gateZ (m ((c : Thread nD τ).loc main_arg0)) (m ((c : Thread nD τ).loc main_arg1)) (m ((c : Thread nD τ).loc main_arg5)) (asRow (m ((c : Thread nD τ).loc main_arg6))) :=
  (W2_arr m ρ c 7).trans ((Cert.KernelIdeal.Gates.update_array (V1 m ρ) c).trans
    (gateZ_congr (host_input m ρ c) (host_state m ρ c) (host_update_weights m ρ c) (host_update_bias m ρ c)))

/-- The gate region's second output is the reset gate's product with the state, of the arguments. -/
theorem mid_reset_state (c : Dev nD) :
    (V2 m ρ c main_v10_1 : S1024x2048.Idx → EReal)
      = resetState (m ((c : Thread nD τ).loc main_arg0)) (m ((c : Thread nD τ).loc main_arg1)) (m ((c : Thread nD τ).loc main_arg1)) (m ((c : Thread nD τ).loc main_arg3)) (asRow (m ((c : Thread nD τ).loc main_arg4))) :=
  (W2_arr m ρ c 8).trans ((Cert.KernelIdeal.Gates.reset_array (V1 m ρ) c).trans
    (resetState_congr (host_input m ρ c) (host_state m ρ c) (host_state_kept m ρ c) (host_reset_weights m ρ c) (host_reset_bias m ρ c)))

/-! ## When @main returns -/

/-- The new potential of the update region's inputs is the cell's new potential of the arguments. -/
theorem final_potential (c : Dev nD) :
    potential (V2 m ρ c main_v3) (V2 m ρ c main_v10_1) (V2 m ρ c main_arg1) (V2 m ρ c main_v10_0) (V2 m ρ c main_arg2)
        (V2 m ρ c main_v2) (V2 m ρ c main_v7)
      = cellPotential (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  potential_congr (mid_input m ρ c) (mid_reset_state m ρ c) (mid_state m ρ c) (mid_update_gate m ρ c) (mid_previous m ρ c)
    (mid_candidate_weights m ρ c) (mid_candidate_bias m ρ c)

/-- The first result buffer holds the cell's first result of the arguments. -/
theorem first_result (c : Dev nD) :
    W3 m ρ c (Proc.devRef .tc main_v11_0)
      = cellFired (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W3_arr m ρ c 9).trans ((Cert.KernelIdeal.Update.fired_array (V2 m ρ) c).trans
    (fired_congr (final_potential m ρ c) (mid_thresholds m ρ c)))

/-- The second result buffer holds the cell's second result of the arguments. -/
theorem second_result (c : Dev nD) :
    W3 m ρ c (Proc.devRef .tc main_v11_1)
      = cellLeaked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W3_arr m ρ c 10).trans ((Cert.KernelIdeal.Update.leaked_array (V2 m ρ) c).trans
    (leaked_congr (final_potential m ρ c) (mid_thresholds m ρ c) (mid_decay m ρ c)))

end Cert.KernelIdeal.Contents

end
-- ==== Proof.Reference.lean ====
/-
  The reference program computes the gated cell of the specification.

  The reference joins the input and the state along the columns, `[x | h]`, and contracts the 4096 joined columns
  against a gate's transposed weights in ONE sum; the specification adds the two half sums. `sum_halves` and the
  reading of a two-piece join at a column of either half give the gate's pre-activation; the logistic is spelt
  `1 / (1 + exp (−v))` with the float word of one, which is the extended real one; every later stage is pointwise
  and is the specification's own expression, in the same order of operands.
-/
import proofs.«103545_j13340168421984_2_alg».proof.Proof.Spec
import proofs.«103545_j13340168421984_2_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.IdealHost

noncomputable section

namespace Cert.GatedCell.Reference

open Idealize.ShloMosaic Idealize.ShloMosaic.ValueIdx Cert.ReferenceIdeal Cert.ReferenceIdeal.Gen
  Cert.ReferenceIdeal.Read Cert.GatedCell

/-- The joined rows `[A | B]` at a column of the first half: `A`'s entry at that column. -/
theorem joined_lo (A B : S1024x2048.Idx → EReal) (h : Shape.Concatenates [S1024x2048, S1024x2048] S1024x4096 1)
    (b : Fin 1024) (k : Fin 2048) :
    concatenate S1024x4096 1 [⟨S1024x2048, A⟩, ⟨S1024x2048, B⟩] h (ix2 b (lo k)) = A (ix2 b k) :=
  concatenate_pair_apply_left (1 : Fin S1024x4096.rank) A B h (ix2 b (lo k)) rfl (ix2 b k)
    (fun c => match c with
      | ⟨0, _⟩ => rfl
      | ⟨1, _⟩ => rfl)

/-- The joined rows `[A | B]` at a column of the second half: `B`'s entry, 2048 columns to the left. -/
theorem joined_hi (A B : S1024x2048.Idx → EReal) (h : Shape.Concatenates [S1024x2048, S1024x2048] S1024x4096 1)
    (b : Fin 1024) (k : Fin 2048) :
    concatenate S1024x4096 1 [⟨S1024x2048, A⟩, ⟨S1024x2048, B⟩] h (ix2 b (hi k)) = B (ix2 b k) :=
  concatenate_pair_apply_right (1 : Fin S1024x4096.rank) A B h (ix2 b (hi k)) rfl rfl (ix2 b k)
    (fun c hc => match c, hc with
      | ⟨0, _⟩, _ => rfl
      | ⟨1, _⟩, hc => absurd rfl hc)
    (by show k.val + 2048 = 2048 + k.val; omega)

/-- One sum over the 4096 joined columns against a weight row is the two half sums. -/
theorem dot_joined (A B : S1024x2048.Idx → EReal) (W : S2048x4096.Idx → EReal)
    (h : Shape.Concatenates [S1024x2048, S1024x2048] S1024x4096 1) (b : Fin 1024) (j : Fin 2048) :
    ∑ k : Fin 4096, concatenate S1024x4096 1 [⟨S1024x2048, A⟩, ⟨S1024x2048, B⟩] h (ix2 b k) * W (ix2 j k)
      = (∑ k : Fin 2048, A (ix2 b k) * W (ix2 j (lo k))) + ∑ k : Fin 2048, B (ix2 b k) * W (ix2 j (hi k)) := by
  rw [sum_halves]
  congr 1
  · exact Finset.sum_congr rfl fun k _ => by rw [joined_lo]
  · exact Finset.sum_congr rfl fun k _ => by rw [joined_hi]

/-- The reset gate's pre-activation (stage 5) is the specification's `pre` with the bias laid out as a row. -/
theorem v5_eq (x0 x1 : (⟨S1024x2048, .f32⟩ : BufTy).Contents (Elt Ideal)) (x3 : (⟨S2048x4096, .f32⟩ : BufTy).Contents (Elt Ideal))
    (x4 : (⟨S2048, .f32⟩ : BufTy).Contents (Elt Ideal)) (i : S1024x2048.Idx) :
    val_main_v5 (F := Ideal) x0 x1 x3 x4 i = pre x0 x1 x3 (asRow x4) (i 0) (i 1) := by
  obtain ⟨b, j, rfl⟩ : ∃ (b : Fin 1024) (j : Fin 2048), i = ix2 b j := ⟨i 0, i 1, eq_ix2 i⟩
  rw [val_main_v5_apply, val_main_v2_apply, val_main_v4_apply, val_main_v3_apply]
  have hl : ∀ k : Fin 4096, lidx_main_v2 (ix2 b j) k = ix2 b k := fun k => funext fun a => Fin.ext (by
    match a with
    | ⟨0, _⟩ => rfl
    | ⟨1, _⟩ => rfl)
  have hr : ∀ k : Fin 4096, val_main_v1 (F := Ideal) x3 (ridx_main_v2 (ix2 b j) k) = x3 (ix2 j k) := fun k => by
    rw [val_main_v1_apply]
    exact congrArg x3 (funext fun a => Fin.ext (by
      match a with
      | ⟨0, _⟩ => rfl
      | ⟨1, _⟩ => rfl))
  have hb : idx_main_v3 (idx_main_v4 (ix2 b j)) = ix1 j := funext fun a => Fin.ext (by
    match a with
    | ⟨0, _⟩ => rfl)
  simp only [hl, hr, hb]
  unfold val_main_v0
  rw [Ideal.addf_def, dot_joined]
  rfl

/-- The update gate's pre-activation (stage 16). -/
theorem v16_eq (x0 x1 : (⟨S1024x2048, .f32⟩ : BufTy).Contents (Elt Ideal)) (x5 : (⟨S2048x4096, .f32⟩ : BufTy).Contents (Elt Ideal))
    (x6 : (⟨S2048, .f32⟩ : BufTy).Contents (Elt Ideal)) (i : S1024x2048.Idx) :
    val_main_v16 (F := Ideal) x0 x1 x5 x6 i = pre x0 x1 x5 (asRow x6) (i 0) (i 1) := by
  obtain ⟨b, j, rfl⟩ : ∃ (b : Fin 1024) (j : Fin 2048), i = ix2 b j := ⟨i 0, i 1, eq_ix2 i⟩
  rw [val_main_v16_apply, val_main_v13_apply, val_main_v15_apply, val_main_v14_apply]
  have hl : ∀ k : Fin 4096, lidx_main_v13 (ix2 b j) k = ix2 b k := fun k => funext fun a => Fin.ext (by
    match a with
    | ⟨0, _⟩ => rfl
    | ⟨1, _⟩ => rfl)
  have hr : ∀ k : Fin 4096, val_main_v12 (F := Ideal) x5 (ridx_main_v13 (ix2 b j) k) = x5 (ix2 j k) := fun k => by
    rw [val_main_v12_apply]
    exact congrArg x5 (funext fun a => Fin.ext (by
      match a with
      | ⟨0, _⟩ => rfl
      | ⟨1, _⟩ => rfl))
  have hb : idx_main_v14 (idx_main_v15 (ix2 b j)) = ix1 j := funext fun a => Fin.ext (by
    match a with
    | ⟨0, _⟩ => rfl)
  simp only [hl, hr, hb]
  unfold val_main_v0
  rw [Ideal.addf_def, dot_joined]
  rfl

/-- The reference's `1 / (1 + exp (−v))`, with the float word of one, is the logistic function. -/
theorem logistic_spelt (v : EReal) :
    Ideal.div (Ideal.ofBits .f32 0x3F800000#32) (Ideal.ofBits .f32 0x3F800000#32 + Ideal.exp (-v)) = Ideal.logistic v := by
  rw [Ideal.ofBits_one_f32]
  rfl

/-- The reset gate (stage 11) is the logistic of its pre-activation. -/
theorem v11_eq (x0 x1 : (⟨S1024x2048, .f32⟩ : BufTy).Contents (Elt Ideal)) (x3 : (⟨S2048x4096, .f32⟩ : BufTy).Contents (Elt Ideal))
    (x4 : (⟨S2048, .f32⟩ : BufTy).Contents (Elt Ideal)) (i : S1024x2048.Idx) :
    val_main_v11 (F := Ideal) x0 x1 x3 x4 i = Ideal.logistic (pre x0 x1 x3 (asRow x4) (i 0) (i 1)) := by
  rw [val_main_v11_apply, val_main_v10_apply, val_main_cst_0_apply, val_main_v9_apply, val_main_v8_apply,
    val_main_cst_apply, val_main_v7_apply, val_main_v6_apply, v5_eq]
  exact logistic_spelt _

/-- The update gate (stage 22) is the specification's `gateZ`. -/
theorem v22_eq (x0 x1 : (⟨S1024x2048, .f32⟩ : BufTy).Contents (Elt Ideal)) (x5 : (⟨S2048x4096, .f32⟩ : BufTy).Contents (Elt Ideal))
    (x6 : (⟨S2048, .f32⟩ : BufTy).Contents (Elt Ideal)) :
    val_main_v22 (F := Ideal) x0 x1 x5 x6 = gateZ x0 x1 x5 (asRow x6) := by
  funext i
  rw [val_main_v22_apply, val_main_v21_apply, val_main_cst_2_apply, val_main_v20_apply, val_main_v19_apply,
    val_main_cst_1_apply, val_main_v18_apply, val_main_v17_apply, v16_eq]
  exact logistic_spelt _

/-- The reset gate times the state (stage 23) is the specification's `resetState`. -/
theorem v23_eq (x0 x1 : (⟨S1024x2048, .f32⟩ : BufTy).Contents (Elt Ideal)) (x3 : (⟨S2048x4096, .f32⟩ : BufTy).Contents (Elt Ideal))
    (x4 : (⟨S2048, .f32⟩ : BufTy).Contents (Elt Ideal)) :
    val_main_v23 (F := Ideal) x0 x1 x3 x4 = resetState x0 x1 x1 x3 (asRow x4) := by
  funext i
  rw [val_main_v23_apply, v11_eq]
  rfl

/-- The candidate's pre-activation (stage 29): the second join is `[x | r·h]`, so its hidden half is `resetState`. -/
theorem v29_eq (x0 x1 : (⟨S1024x2048, .f32⟩ : BufTy).Contents (Elt Ideal)) (x3 : (⟨S2048x4096, .f32⟩ : BufTy).Contents (Elt Ideal))
    (x4 : (⟨S2048, .f32⟩ : BufTy).Contents (Elt Ideal)) (x7 : (⟨S2048x4096, .f32⟩ : BufTy).Contents (Elt Ideal))
    (x8 : (⟨S2048, .f32⟩ : BufTy).Contents (Elt Ideal)) (i : S1024x2048.Idx) :
    val_main_v29 (F := Ideal) x0 x1 x3 x4 x7 x8 i
      = pre x0 (resetState x0 x1 x1 x3 (asRow x4)) x7 (asRow x8) (i 0) (i 1) := by
  obtain ⟨b, j, rfl⟩ : ∃ (b : Fin 1024) (j : Fin 2048), i = ix2 b j := ⟨i 0, i 1, eq_ix2 i⟩
  rw [val_main_v29_apply, val_main_v26_apply, val_main_v28_apply, val_main_v27_apply]
  have hl : ∀ k : Fin 4096, lidx_main_v26 (ix2 b j) k = ix2 b k := fun k => funext fun a => Fin.ext (by
    match a with
    | ⟨0, _⟩ => rfl
    | ⟨1, _⟩ => rfl)
  have hr : ∀ k : Fin 4096, val_main_v25 (F := Ideal) x7 (ridx_main_v26 (ix2 b j) k) = x7 (ix2 j k) := fun k => by
    rw [val_main_v25_apply]
    exact congrArg x7 (funext fun a => Fin.ext (by
      match a with
      | ⟨0, _⟩ => rfl
      | ⟨1, _⟩ => rfl))
  have hb : idx_main_v27 (idx_main_v28 (ix2 b j)) = ix1 j := funext fun a => Fin.ext (by
    match a with
    | ⟨0, _⟩ => rfl)
  simp only [hl, hr, hb]
  unfold val_main_v24
  rw [Ideal.addf_def, dot_joined, v23_eq]
  rfl

/-- The new potential (stage 36) is the specification's `cellPotential`. -/
theorem v36_eq (x0 x1 x2 : (⟨S1024x2048, .f32⟩ : BufTy).Contents (Elt Ideal)) (x3 : (⟨S2048x4096, .f32⟩ : BufTy).Contents (Elt Ideal))
    (x4 : (⟨S2048, .f32⟩ : BufTy).Contents (Elt Ideal)) (x5 : (⟨S2048x4096, .f32⟩ : BufTy).Contents (Elt Ideal))
    (x6 : (⟨S2048, .f32⟩ : BufTy).Contents (Elt Ideal)) (x7 : (⟨S2048x4096, .f32⟩ : BufTy).Contents (Elt Ideal))
    (x8 : (⟨S2048, .f32⟩ : BufTy).Contents (Elt Ideal)) :
    val_main_v36 (F := Ideal) x0 x1 x2 x3 x4 x5 x6 x7 x8 = cellPotential x0 x1 x2 x3 x4 x5 x6 x7 x8 := by
  funext i
  rw [val_main_v36_apply, val_main_v35_apply, val_main_v33_apply, val_main_v32_apply, val_main_v31_apply,
    val_main_cst_3_apply, val_main_v34_apply, val_main_v30_apply, v29_eq, v22_eq]
  rfl

/-- The potential above the threshold, cut off at zero (stage 40, the called `relu`), is the specification's `excess`. -/
theorem v40_eq (x0 x1 x2 : (⟨S1024x2048, .f32⟩ : BufTy).Contents (Elt Ideal)) (x3 : (⟨S2048x4096, .f32⟩ : BufTy).Contents (Elt Ideal))
    (x4 : (⟨S2048, .f32⟩ : BufTy).Contents (Elt Ideal)) (x5 : (⟨S2048x4096, .f32⟩ : BufTy).Contents (Elt Ideal))
    (x6 : (⟨S2048, .f32⟩ : BufTy).Contents (Elt Ideal)) (x7 : (⟨S2048x4096, .f32⟩ : BufTy).Contents (Elt Ideal))
    (x8 x9 : (⟨S2048, .f32⟩ : BufTy).Contents (Elt Ideal)) :
    val_main_v40 (F := Ideal) x0 x1 x2 x3 x4 x5 x6 x7 x8 x9
      = excess (cellPotential x0 x1 x2 x3 x4 x5 x6 x7 x8) (asRow x9) := by
  funext i
  have hb : idx_main_v37 (idx_main_v38 i) = ix1 (i 1) := funext fun a => Fin.ext (by
    match a with
    | ⟨0, _⟩ => rfl)
  rw [val_main_v40_apply, val_main_v39_apply, val_main_v38_apply, val_main_v37_apply, val_main_call0_v0_apply,
    val_main_call0_cst_apply, v36_eq, hb]
  rfl

/-- The reference's first result is the cell's fired potential. -/
theorem fired_eq (x0 x1 x2 : (⟨S1024x2048, .f32⟩ : BufTy).Contents (Elt Ideal)) (x3 : (⟨S2048x4096, .f32⟩ : BufTy).Contents (Elt Ideal))
    (x4 : (⟨S2048, .f32⟩ : BufTy).Contents (Elt Ideal)) (x5 : (⟨S2048x4096, .f32⟩ : BufTy).Contents (Elt Ideal))
    (x6 : (⟨S2048, .f32⟩ : BufTy).Contents (Elt Ideal)) (x7 : (⟨S2048x4096, .f32⟩ : BufTy).Contents (Elt Ideal))
    (x8 x9 : (⟨S2048, .f32⟩ : BufTy).Contents (Elt Ideal)) :
    Cert.ReferenceIdeal.Read.val_main_v44 (F := Ideal) x0 x1 x2 x3 x4 x5 x6 x7 x8 x9
      = Cert.GatedCell.cellFired x0 x1 x2 x3 x4 x5 x6 x7 x8 x9 := by
  funext i
  rw [val_main_v44_apply, val_main_v43_apply, val_main_v42_apply, val_main_v41_apply, val_main_cst_4_apply,
    v40_eq, v36_eq]
  rfl

/-- The reference's second result is the cell's leaked potential. -/
theorem leaked_eq (x0 x1 x2 : (⟨S1024x2048, .f32⟩ : BufTy).Contents (Elt Ideal)) (x3 : (⟨S2048x4096, .f32⟩ : BufTy).Contents (Elt Ideal))
    (x4 : (⟨S2048, .f32⟩ : BufTy).Contents (Elt Ideal)) (x5 : (⟨S2048x4096, .f32⟩ : BufTy).Contents (Elt Ideal))
    (x6 : (⟨S2048, .f32⟩ : BufTy).Contents (Elt Ideal)) (x7 : (⟨S2048x4096, .f32⟩ : BufTy).Contents (Elt Ideal))
    (x8 x9 x10 : (⟨S2048, .f32⟩ : BufTy).Contents (Elt Ideal)) :
    Cert.ReferenceIdeal.Read.val_main_v51 (F := Ideal) x0 x1 x2 x3 x4 x5 x6 x7 x8 x9 x10
      = Cert.GatedCell.cellLeaked x0 x1 x2 x3 x4 x5 x6 x7 x8 x9 x10 := by
  funext i
  have hb : idx_main_v49 (idx_main_v50 i) = ix1 (i 1) := funext fun a => Fin.ext (by
    match a with
    | ⟨0, _⟩ => rfl)
  rw [val_main_v51_apply, val_main_v48_apply, val_main_v47_apply, val_main_v46_apply, val_main_v45_apply,
    val_main_cst_5_apply, val_main_v50_apply, val_main_v49_apply, v40_eq, v36_eq, hb]
  rfl

end Cert.GatedCell.Reference

end
-- ==== Proof.lean ====
/-
  A gated recurrent cell with threshold gating, as two Pallas kernels, against its plain jnp reference: the two
  programs' results are equal as extended reals.

  The cell. From an input `x`, a state `h` and a potential `p₀` (1024 rows of 2048 entries each), three gates'
  weights (2048 units, each against the 4096 columns of `[x | h]`) and biases, thresholds `θ` and decay rates `δ`:
  the reset gate `r = σ([x | h]·W_rᵀ + β_r)` and the update gate `z = σ([x | h]·W_zᵀ + β_z)`, `σ v = 1/(1 + e⁻ᵛ)`; the
  candidate `n = tanh([x | r·h]·W_cᵀ + β_c)`; the new potential `p = p₀ + ((1 − z)·h + z·n)`; with `g = max(p − θ, 0)`
  the two results are `[g > 0]·p` and `(p·[g ≤ 0])·δ` (Proof/Spec.lean states all of it index by index).

  The kernel computes the two gates in a first launch, tile by tile, writing `z` and `r·h`, and the candidate, the
  potential and the two results in a second launch that reads them back; each matrix product is taken as two
  products over the input half and the hidden half of the weights' columns, in reduced precision. The reference
  joins the operands along the columns and takes one product over all 4096 columns. At the exact values the
  changes of float format are the identity, a product into a zero accumulator is the plain sum, the kernel's
  logistic is `1/(1 + e⁻ᵛ)` by definition, and the kernel's indicator (a comparison's bit widened to a word and
  converted as a signed integer) is the bit's value; what is left between the two programs is that a sum over 4096
  columns is the sum of its two halves, which holds for any extended reals. So the claim needs nothing of the
  inputs, and the precondition (finite inputs) is never opened.

  The modules: Proof/Spec.lean (the cell and the law of the two halves), Proof/Gates.lean and Proof/Update.lean (what
  each launch leaves in its output arrays, from the arrays it finds), Proof/KernelRun.lean (the kernel's run with its
  results named at the last contents of the buffers), Proof/Fold.lean (those contents as the cell of the arguments),
  Proof/Reference.lean (the reference's result terms are the cell). The three frames are the generated ones; the
  ideal pass rewrote nothing, so `preserves` is trivial.
-/
import proofs.«103545_j13340168421984_2_alg».proof.Defs
import proofs.«103545_j13340168421984_2_alg».proof.Proof.Gen.Kernel
import proofs.«103545_j13340168421984_2_alg».proof.Proof.Gen.Kernel.Skeleton
import proofs.«103545_j13340168421984_2_alg».proof.Proof.Gen.Kernel.Launch
import proofs.«103545_j13340168421984_2_alg».proof.Proof.Gen.Kernel.Points
import proofs.«103545_j13340168421984_2_alg».proof.Proof.Gen.Kernel.Frame
import proofs.«103545_j13340168421984_2_alg».proof.Proof.Gen.KernelIdeal
import proofs.«103545_j13340168421984_2_alg».proof.Proof.Gen.KernelIdeal.Skeleton
import proofs.«103545_j13340168421984_2_alg».proof.Proof.Gen.KernelIdeal.Launch
import proofs.«103545_j13340168421984_2_alg».proof.Proof.Gen.KernelIdeal.Points
import proofs.«103545_j13340168421984_2_alg».proof.Proof.Gen.KernelIdeal.Frame
import proofs.«103545_j13340168421984_2_alg».proof.Proof.Gen.ReferenceIdeal
import proofs.«103545_j13340168421984_2_alg».proof.Proof.Gen.ReferenceIdeal.Run
import proofs.«103545_j13340168421984_2_alg».proof.Proof.Gen.ReferenceIdeal.Read
import proofs.«103545_j13340168421984_2_alg».proof.Proof.Gen.Pre_finite_inputs
import proofs.«103545_j13340168421984_2_alg».proof.Proof.Spec
import proofs.«103545_j13340168421984_2_alg».proof.Proof.KernelRun
import proofs.«103545_j13340168421984_2_alg».proof.Proof.Fold
import proofs.«103545_j13340168421984_2_alg».proof.Proof.Reference
import Idealize.ShloMosaic.Adequacy
import Idealize.ShloMosaic.Init

noncomputable section

namespace Cert.Proof

open Idealize.ShloMosaic Idealize.SL.Sem

/-- The kernel as printed runs and leaves its arguments as launched: the generated frame. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The reference runs and leaves its arguments as launched: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories agreeing on the arguments both programs end with the cell's two results of those arguments. -/
theorem algebraic : Cert.algebraic_KernelIdeal_ReferenceIdeal := by
  intro m ρ m' ρ' _ hagree
  refine ⟨fun c => Cert.GatedCell.cellFired (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.GatedCell.cellLeaked (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c).1.trans (Cert.KernelIdeal.Contents.first_result m ρ c),
       (h c).2.1.trans (Cert.KernelIdeal.Contents.second_result m ρ c), (h c).2.2⟩)
      (Cert.KernelIdeal.Results.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10⟩ := hagree c
      rw [Cert.ReferenceIdeal.Read.val_main_v44_eq, Cert.GatedCell.Reference.fired_eq, a0, a1, a2, a3, a4, a5, a6, a7, a8, a9]
    · obtain ⟨a0, a1, a2, a3, a4, a5, a6, a7, a8, a9, a10⟩ := hagree c
      rw [Cert.ReferenceIdeal.Read.val_main_v51_eq, Cert.GatedCell.Reference.leaked_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
